-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x256x32x32 : Shape := ⟨5, ![4, 8, 256, 32, 32]⟩
abbrev S_ : Shape := ⟨0, ![]⟩

class Facts : Prop where
  bcast_S_S4x8x256x32x32 : S_.BroadcastsInDim S4x8x256x32x32 (![] : Fin 0 → Fin S4x8x256x32x32.rank)
  reducesTo_S4x8x256x32x32_S_d0_1_2_3_4 : S4x8x256x32x32.ReducesTo [0, 1, 2, 3, 4] S_
  h_S_ : 0 < S_.numel

variable [Facts]

def fn {F : FTy → Type} [FloatOps F] (main_arg0 : FVec F S4x8x256x32x32 .f32) (main_arg1 : FVec F S4x8x256x32x32 .f32) (main_arg2 : FVec F S4x8x256x32x32 .f32) : IVec S_ 1 :=
  let main_v0 : FVec F S4x8x256x32x32 .f32 := Host.absf main_arg0
  let main_cst : FVec F S_ .f32 := constant S_ .f32 0x7F800000#32
  let main_v1 : FVec F S4x8x256x32x32 .f32 := broadcastInDim S4x8x256x32x32 ![] bcast_S_S4x8x256x32x32 main_cst
  let main_v2 : IVec S4x8x256x32x32 1 := cmpf .olt main_v0 main_v1
  let main_c : IVec S_ 1 := constantI S_ 1 1#1
  let main_v3 : IVec S_ 1 := (fun x v => Host.reduce IntOp.andi x v reducesTo_S4x8x256x32x32_S_d0_1_2_3_4 h_S_) main_v2 main_c
  let main_v4 : FVec F S4x8x256x32x32 .f32 := Host.absf main_arg1
  let main_cst_0 : FVec F S_ .f32 := constant S_ .f32 0x7F800000#32
  let main_v5 : FVec F S4x8x256x32x32 .f32 := broadcastInDim S4x8x256x32x32 ![] bcast_S_S4x8x256x32x32 main_cst_0
  let main_v6 : IVec S4x8x256x32x32 1 := cmpf .olt main_v4 main_v5
  let main_c_1 : IVec S_ 1 := constantI S_ 1 1#1
  let main_v7 : IVec S_ 1 := (fun x v => Host.reduce IntOp.andi x v reducesTo_S4x8x256x32x32_S_d0_1_2_3_4 h_S_) main_v6 main_c_1
  let main_v8 : IVec S_ 1 := andi main_v3 main_v7
  let main_v9 : FVec F S4x8x256x32x32 .f32 := Host.absf main_arg2
  let main_cst_2 : FVec F S_ .f32 := constant S_ .f32 0x7F800000#32
  let main_v10 : FVec F S4x8x256x32x32 .f32 := broadcastInDim S4x8x256x32x32 ![] bcast_S_S4x8x256x32x32 main_cst_2
  let main_v11 : IVec S4x8x256x32x32 1 := cmpf .olt main_v9 main_v10
  let main_c_3 : IVec S_ 1 := constantI S_ 1 1#1
  let main_v12 : IVec S_ 1 := (fun x v => Host.reduce IntOp.andi x v reducesTo_S4x8x256x32x32_S_d0_1_2_3_4 h_S_) main_v11 main_c_3
  let main_v13 : IVec S_ 1 := andi main_v8 main_v12
  main_v13
-- ==== Kernel.lean ====
abbrev S4x8x256x32x32 : Shape := ⟨5, ![4, 8, 256, 32, 32]⟩
abbrev S4x8x256x1024 : Shape := ⟨4, ![4, 8, 256, 1024]⟩
abbrev S4x8x1024x1024 : Shape := ⟨4, ![4, 8, 1024, 1024]⟩
abbrev S1x1x256x1024 : Shape := ⟨4, ![1, 1, 256, 1024]⟩
abbrev S1x1x1024x1024 : Shape := ⟨4, ![1, 1, 1024, 1024]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S4x8x32x32x32x32 : Shape := ⟨6, ![4, 8, 32, 32, 32, 32]⟩

abbrev nBuf : Space → Nat
  | .hbm => 10
  | .vmem => 10
  | .smem => 0
  | _ => 0

abbrev bufTy : (tb : Table) → Fin (tcTables nBuf tb) → BufTy
  | .hbm, ⟨0, _⟩ => ⟨S4x8x256x32x32, .f32⟩
  | .hbm, ⟨1, _⟩ => ⟨S4x8x256x32x32, .f32⟩
  | .hbm, ⟨2, _⟩ => ⟨S4x8x256x32x32, .f32⟩
  | .hbm, ⟨3, _⟩ => ⟨S4x8x256x1024, .f32⟩
  | .hbm, ⟨4, _⟩ => ⟨S4x8x256x1024, .f32⟩
  | .hbm, ⟨5, _⟩ => ⟨S4x8x256x1024, .f32⟩
  | .hbm, ⟨6, _⟩ => ⟨S4x8x256x1024, .f32⟩
  | .hbm, ⟨7, _⟩ => ⟨S4x8x1024x1024, .f32⟩
  | .hbm, ⟨8, _⟩ => ⟨S4x8x256x32x32, .f32⟩
  | .hbm, ⟨9, _⟩ => ⟨S4x8x32x32x32x32, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x1x1024x1024, .f32⟩
  | .local _ .vmem, ⟨9, _⟩ => ⟨S1x1x1024x1024, .f32⟩
  | _, _ => ⟨S4x8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x8x256x32x32_S4x8x256x1024 : S4x8x256x32x32.ShapeCasts S4x8x256x1024
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  bitsLt_bf16_f32 : FTy.bits .bf16 < FTy.bits .f32
  reduces_S1024x1024_S1024 : S1024x1024.Reduces [0] S1024
  shapeCasts_S1024_S1x1024 : S1024.ShapeCasts S1x1024
  broadcasts_S1x1024_S1024x1024 : S1x1024.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  broadcasts_S1x1024_S256x1024 : S1x1024.Broadcasts S256x1024
  shapeCasts_S256x1024_S1x1x256x1024 : S256x1024.ShapeCasts S1x1x256x1024
  shapeCasts_S4x8x256x1024_S4x8x256x32x32 : S4x8x256x1024.ShapeCasts S4x8x256x32x32
  shapeCasts_S4x8x1024x1024_S4x8x32x32x32x32 : S4x8x1024x1024.ShapeCasts S4x8x32x32x32x32
  dot_S256x1024_S256x1024_S1024x1024_0_0_1_1_n_n_wf : DotDims.WF S256x1024 S256x1024 S1024x1024 [0] [0] [1] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x1024.size a ≤ S4x8x256x1024.size a
  hwx0_0 : ∀ i : grid0.Coords, EltTy.bits .f32 = 32 ∨ (Rect.block (s := S4x8x256x1024) S1x1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x1024.size a ≤ S4x8x256x1024.size a
  hwx0_1 : ∀ i : grid0.Coords, EltTy.bits .f32 = 32 ∨ (Rect.block (s := S4x8x256x1024) S1x1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x1024.size a ≤ S4x8x256x1024.size a
  hwx0_2 : ∀ i : grid0.Coords, EltTy.bits .f32 = 32 ∨ (Rect.block (s := S4x8x256x1024) S1x1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x1024.size a ≤ S4x8x256x1024.size a
  hwx0_3 : ∀ i : grid0.Coords, EltTy.bits .f32 = 32 ∨ (Rect.block (s := S4x8x256x1024) S1x1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x1024.size a ≤ S4x8x1024x1024.size a
  hwx0_4 : ∀ i : grid0.Coords, EltTy.bits .f32 = 32 ∨ (Rect.block (s := S4x8x1024x1024) S1x1x1024x1024.size (cc0_transform_4 i) (hinb0_4 i)).WholeWords (EltTy.packing .f32)

variable [Facts₀]

def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x256x32x32 : Shape := ⟨5, ![4, 8, 256, 32, 32]⟩
abbrev S4x8x256x1024 : Shape := ⟨4, ![4, 8, 256, 1024]⟩
abbrev S4x8x1024x1024 : Shape := ⟨4, ![4, 8, 1024, 1024]⟩
abbrev S_ : Shape := ⟨0, ![]⟩
abbrev S4x8x1024 : Shape := ⟨3, ![4, 8, 1024]⟩
abbrev S4x8x1x1024 : Shape := ⟨4, ![4, 8, 1, 1024]⟩
abbrev S4x8x32x32x32x32 : Shape := ⟨6, ![4, 8, 32, 32, 32, 32]⟩

abbrev nBuf : Space → Nat
  | .hbm => 27
  | .vmem => 0
  | .smem => 0
  | _ => 0

abbrev bufTy : (tb : Table) → Fin (tcTables nBuf tb) → BufTy
  | .hbm, ⟨0, _⟩ => ⟨S4x8x256x32x32, .f32⟩
  | .hbm, ⟨1, _⟩ => ⟨S4x8x256x32x32, .f32⟩
  | .hbm, ⟨2, _⟩ => ⟨S4x8x256x32x32, .f32⟩
  | .hbm, ⟨3, _⟩ => ⟨S4x8x256x1024, .f32⟩
  | .hbm, ⟨4, _⟩ => ⟨S4x8x256x1024, .f32⟩
  | .hbm, ⟨5, _⟩ => ⟨S4x8x256x1024, .f32⟩
  | .hbm, ⟨6, _⟩ => ⟨S4x8x1024x1024, .f32⟩
  | .hbm, ⟨7, _⟩ => ⟨S_, .f32⟩
  | .hbm, ⟨8, _⟩ => ⟨S4x8x1024x1024, .f32⟩
  | .hbm, ⟨9, _⟩ => ⟨S4x8x1024x1024, .f32⟩
  | .hbm, ⟨10, _⟩ => ⟨S_, .f32⟩
  | .hbm, ⟨11, _⟩ => ⟨S4x8x1024, .f32⟩
  | .hbm, ⟨12, _⟩ => ⟨S_, .f32⟩
  | .hbm, ⟨13, _⟩ => ⟨S4x8x1024, .f32⟩
  | .hbm, ⟨14, _⟩ => ⟨S4x8x1024, .f32⟩
  | .hbm, ⟨15, _⟩ => ⟨S4x8x1x1024, .f32⟩
  | .hbm, ⟨16, _⟩ => ⟨S4x8x1024x1024, .f32⟩
  | .hbm, ⟨17, _⟩ => ⟨S4x8x1024x1024, .f32⟩
  | .hbm, ⟨18, _⟩ => ⟨S4x8x1024x1024, .f32⟩
  | .hbm, ⟨19, _⟩ => ⟨S_, .f32⟩
  | .hbm, ⟨20, _⟩ => ⟨S4x8x1024, .f32⟩
  | .hbm, ⟨21, _⟩ => ⟨S4x8x1x1024, .f32⟩
  | .hbm, ⟨22, _⟩ => ⟨S4x8x1024x1024, .f32⟩
  | .hbm, ⟨23, _⟩ => ⟨S4x8x1024x1024, .f32⟩
  | .hbm, ⟨24, _⟩ => ⟨S4x8x256x1024, .f32⟩
  | .hbm, ⟨25, _⟩ => ⟨S4x8x256x32x32, .f32⟩
  | .hbm, ⟨26, _⟩ => ⟨S4x8x32x32x32x32, .f32⟩
  | _, _ => ⟨S4x8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S4x8x256x32x32_S4x8x256x1024 : S4x8x256x32x32.ShapeCasts S4x8x256x1024
  bcast_S_S4x8x1024x1024 : S_.BroadcastsInDim S4x8x1024x1024 (![] : Fin 0 → Fin S4x8x1024x1024.rank)
  reducesTo_S4x8x1024x1024_S4x8x1024_d2 : S4x8x1024x1024.ReducesTo [2] S4x8x1024
  h_S_ : 0 < S_.numel
  bcast_S_S4x8x1024 : S_.BroadcastsInDim S4x8x1024 (![] : Fin 0 → Fin S4x8x1024.rank)
  bcast_S4x8x1024_S4x8x1x1024_0_1_3 : S4x8x1024.BroadcastsInDim S4x8x1x1024 (![0, 1, 3] : Fin 3 → Fin S4x8x1x1024.rank)
  bcast_S4x8x1x1024_S4x8x1024x1024_0_1_2_3 : S4x8x1x1024.BroadcastsInDim S4x8x1024x1024 (![0, 1, 2, 3] : Fin 4 → Fin S4x8x1024x1024.rank)
  shapeCasts_S4x8x256x1024_S4x8x256x32x32 : S4x8x256x1024.ShapeCasts S4x8x256x32x32
  shapeCasts_S4x8x1024x1024_S4x8x32x32x32x32 : S4x8x1024x1024.ShapeCasts S4x8x32x32x32x32
  dot_S4x8x256x1024_S4x8x256x1024_S4x8x1024x1024_2_2_3_3_01_01_wf : DotDims.WF S4x8x256x1024 S4x8x256x1024 S4x8x1024x1024 [2] [2] [3] [3] [0, 1] [0, 1]
  dot_S4x8x256x1024_S4x8x1024x1024_S4x8x256x1024_3_2_2_3_01_01_wf : DotDims.WF S4x8x256x1024 S4x8x1024x1024 S4x8x256x1024 [3] [2] [2] [3] [0, 1] [0, 1]

variable [Facts₀]

def dot_S4x8x256x1024_S4x8x256x1024_S4x8x1024x1024_2_2_3_3_01_01 : DotDims S4x8x256x1024 S4x8x256x1024 S4x8x1024x1024 where
  lhsContracting := [2]
  rhsContracting := [2]
  lhsNonContracting := [3]
  rhsNonContracting := [3]
  lhsBatch := [0, 1]
  rhsBatch := [0, 1]
  wf := dot_S4x8x256x1024_S4x8x256x1024_S4x8x1024x1024_2_2_3_3_01_01_wf
def dot_S4x8x256x1024_S4x8x1024x1024_S4x8x256x1024_3_2_2_3_01_01 : DotDims S4x8x256x1024 S4x8x1024x1024 S4x8x256x1024 where
  lhsContracting := [3]
  rhsContracting := [2]
  lhsNonContracting := [2]
  rhsNonContracting := [3]
  lhsBatch := [0, 1]
  rhsBatch := [0, 1]
  wf := dot_S4x8x256x1024_S4x8x1024x1024_S4x8x256x1024_3_2_2_3_01_01_wf

class Facts : Prop extends Facts₀ where

variable [Facts]
-- ==== Proof.LibERealFinite.lean ====
/-
  Extended reals that are real numbers: general facts used to carry an identity of real arithmetic over to the
  extended reals. A coerced real stays a coerced real under finite sums, maxima, absolute values, case
  distinctions and the exact operations (division by a nonzero real, the logarithm of a positive real); and the
  32-bit words of a few small constants denote the reals one expects.
-/
import Idealize.ShloMosaic.PureOps.Ideal

noncomputable section

open scoped BigOperators

namespace Cert.LibERealFinite

open Idealize.ShloMosaic

/-! ## Sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for a double sum over two finite types. -/
theorem coe_sum₂ {ι κ : Type*} [Fintype ι] [Fintype κ] (f : ι → κ → ℝ) :
    ((∑ i, ∑ j, f i j : ℝ) : EReal) = ∑ i, ∑ j, (f i j : EReal) := by
  rw [coe_sum]
  exact Finset.sum_congr rfl fun i _ => coe_sum _ _

/-- A finite sum of extended reals that are all real is real. -/
theorem exists_real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-! ## Order operations -/

/-- The coercion of a maximum of two reals is the maximum of the coercions. -/
theorem coe_max (a b : ℝ) : ((max a b : ℝ) : EReal) = max (a : EReal) (b : EReal) :=
  Monotone.map_max EReal.coe_strictMono.monotone

/-- `max x (-x)` of a real is its absolute value. -/
theorem max_neg_coe (a : ℝ) : max (a : EReal) (-(a : EReal)) = ((|a| : ℝ) : EReal) := by
  rw [← EReal.coe_neg, ← coe_max, abs_eq_max_neg]

/-- The lattice's bottom is neutral for `max`, on either side. -/
theorem max_bot_left' (x : EReal) : max ⊥ x = x := max_eq_right bot_le
theorem max_bot_right' (x : EReal) : max x ⊥ = x := max_eq_left bot_le

/-- A case distinction between two coerced reals is the coercion of the case distinction. -/
theorem ite_coe (c : Prop) [Decidable c] (a b : ℝ) :
    (if c then (a : EReal) else (b : EReal)) = ((if c then a else b : ℝ) : EReal) := by
  split <;> rfl

/-! ## The exact operations on reals -/

/-- Dividing a real by a nonzero real. -/
theorem div_coe_coe {y : ℝ} (hy : y ≠ 0) (x : ℝ) : Ideal.div (x : EReal) (y : EReal) = ((x / y : ℝ) : EReal) := by
  rw [Ideal.div_coe hy, ← EReal.coe_mul, mul_one_div]

/-- The logarithm of a positive real. -/
theorem log_coe_pos {r : ℝ} (h : 0 < r) : Ideal.log (r : EReal) = ((Real.log r : ℝ) : EReal) := by
  rw [Ideal.log_coe, if_neg (not_le.mpr h)]

/-- The exponential of a real. -/
theorem exp_coe' (r : ℝ) : Ideal.exp (r : EReal) = ((Real.exp r : ℝ) : EReal) := rfl

/-- The hyperbolic tangent of a real. -/
theorem tanh_coe' (r : ℝ) : Ideal.tanh (r : EReal) = ((Real.tanh r : ℝ) : EReal) := rfl

/-- The expansion `1 / (1 + exp (-x))` of the logistic function at a real. -/
theorem div_one_add_exp_neg_coe (r : ℝ) :
    Ideal.div 1 (1 + Ideal.exp (-(r : EReal))) = (((1 + Real.exp (-r))⁻¹ : ℝ) : EReal) :=
  Ideal.logistic_coe r

/-! ## The words of a few constants -/

theorem ofBits_f32_zero : Ideal.ofBits .f32 0x00000000#32 = ((0 : ℝ) : EReal) := by
  simp [Ideal.ofBits, Ideal.ieee]

theorem ofBits_f32_one : Ideal.ofBits .f32 0x3F800000#32 = ((1 : ℝ) : EReal) := by
  simp [Ideal.ofBits, Ideal.ieee, -EReal.coe_mul]; norm_num

theorem ofBits_f32_half : Ideal.ofBits .f32 0x3F000000#32 = ((1 / 2 : ℝ) : EReal) := by
  simp [Ideal.ofBits, Ideal.ieee, -EReal.coe_mul]; norm_num

theorem ofBits_f32_quarter : Ideal.ofBits .f32 0x3E800000#32 = ((1 / 4 : ℝ) : EReal) := by
  simp [Ideal.ofBits, Ideal.ieee, -EReal.coe_mul]; norm_num

theorem ofBits_f32_256 : Ideal.ofBits .f32 0x43800000#32 = ((256 : ℝ) : EReal) := by
  simp [Ideal.ofBits, Ideal.ieee, -EReal.coe_mul]; norm_num

theorem ofBits_f32_10000 : Ideal.ofBits .f32 0x461C4000#32 = ((10000 : ℝ) : EReal) := by
  simp [Ideal.ofBits, Ideal.ieee, -EReal.coe_mul]; norm_num

theorem ofBits_f32_65536 : Ideal.ofBits .f32 0x47800000#32 = ((65536 : ℝ) : EReal) := by
  simp [Ideal.ofBits, Ideal.ieee, -EReal.coe_mul]; norm_num

theorem ofBits_f32_neg_inf : Ideal.ofBits .f32 0xFF800000#32 = ⊥ := by
  simp [Ideal.ofBits, Ideal.ieee]

end Cert.LibERealFinite

end
-- ==== Proof.KeySoftmax.lean ====
/-
  Softmax over the KEY positions, and a weighted sum against it, on the reals and on the extended reals.

  For scores `s p r` (key position `p`, query position `r`) the weights are
  `w p r = exp (s p r / 16 - max_p' (s p' r / 16))`, the attention `w p r / Σ_p' w p' r`, and the output at a
  channel `c` is `Σ_p v c p · attention p r`.

  Two arithmetic routes to these numbers are written out on the extended reals. The first scales after
  subtracting the maximum, `exp ((s - max s) · (1/16))`, multiplies by the reciprocal `1 / Σ w`, and pulls that
  reciprocal out of the weighted sum. The second divides the scores by 16 first, takes the maximum of the
  quotients (joined once more with -∞, which changes nothing), divides by the sum, and sums the products. On
  scores that are real numbers both are the coerced real formulas: dividing by a positive number commutes with
  the maximum, `(a - b) · (1/16) = a/16 - b/16`, the sum of the weights is positive, and a common factor moves
  out of a finite sum of reals.
-/
import Idealize.ShloMosaic.PureOps.Ideal
import proofs.«178597_j74929999446751_2_alg».proof.Proof.LibERealFinite

noncomputable section

open scoped BigOperators

namespace Cert.KeySoftmax

open Idealize.ShloMosaic Cert.LibERealFinite

variable {P R C : Type} [Fintype P] [Nonempty P] [Fintype C]

/-! ## On the reals -/

/-- The largest of finitely many reals. -/
def top (g : P → ℝ) : ℝ := Finset.univ.sup' Finset.univ_nonempty g

theorem le_top (g : P → ℝ) (p : P) : g p ≤ top g := Finset.le_sup' g (Finset.mem_univ p)

theorem exists_eq_top (g : P → ℝ) : ∃ p, g p = top g := by
  obtain ⟨p, -, h⟩ := Finset.exists_mem_eq_sup' Finset.univ_nonempty g
  exact ⟨p, h.symm⟩

/-- Dividing by 16 commutes with the maximum. -/
theorem top_div (g : P → ℝ) : top (fun p => g p / 16) = top g / 16 := by
  apply le_antisymm
  · exact Finset.sup'_le _ _ fun p _ => div_le_div_of_nonneg_right (le_top g p) (by norm_num)
  · obtain ⟨p, hp⟩ := exists_eq_top g
    rw [← hp]
    exact le_top (fun p => g p / 16) p

/-- The unnormalised weight of key position `p` for query position `r`. -/
def weight (s : P → R → ℝ) (p : P) (r : R) : ℝ := Real.exp (s p r / 16 - top (fun p' => s p' r / 16))

/-- The sum of the weights over the key positions. -/
def total (s : P → R → ℝ) (r : R) : ℝ := ∑ p, weight s p r

/-- The attention: the weights normalised over the key positions. -/
def attn (s : P → R → ℝ) (p : P) (r : R) : ℝ := weight s p r / total s r

/-- The values weighted by the attention and summed over the key positions. -/
def out (v : C → P → ℝ) (s : P → R → ℝ) (c : C) (r : R) : ℝ := ∑ p, v c p * attn s p r

/-- The weight with the scaling applied after the maximum is subtracted. -/
theorem weight_eq (s : P → R → ℝ) (p : P) (r : R) :
    weight s p r = Real.exp ((s p r - top (fun p' => s p' r)) * (1 / 16)) := by
  unfold weight
  rw [top_div]
  congr 1
  ring

theorem total_pos (s : P → R → ℝ) (r : R) : 0 < total s r :=
  Finset.sum_pos (fun p _ => Real.exp_pos _) Finset.univ_nonempty

theorem attn_eq (s : P → R → ℝ) (p : P) (r : R) : attn s p r = weight s p r * (1 / total s r) := by
  unfold attn
  ring

/-- The reciprocal of the total moves out of the weighted sum. -/
theorem out_eq (v : C → P → ℝ) (s : P → R → ℝ) (c : C) (r : R) :
    out v s c r = (∑ p, v c p * weight s p r) * (1 / total s r) := by
  unfold out
  rw [Finset.sum_mul]
  exact Finset.sum_congr rfl fun p _ => by rw [attn_eq]; ring

/-! ## The maximum of coerced reals on the extended reals -/

/-- Folding `max` from -∞ over coerced reals gives the coerced largest one. -/
theorem fold_max_coe (g : P → ℝ) :
    (Finset.univ : Finset P).fold max (⊥ : EReal) (fun p => ((g p : ℝ) : EReal)) = ((top g : ℝ) : EReal) := by
  apply le_antisymm
  · rw [Finset.fold_max_le]
    exact ⟨bot_le, fun p _ => EReal.coe_le_coe_iff.mpr (le_top g p)⟩
  · rw [Finset.le_fold_max]
    right
    obtain ⟨p, hp⟩ := exists_eq_top g
    exact ⟨p, Finset.mem_univ p, by rw [hp]⟩

/-! ## The first route: scale after subtracting, multiply by the reciprocal -/

/-- `exp ((S - max S) · sixteenth)`. -/
def kWeight (sixteenth : EReal) (S : P → R → EReal) (p : P) (r : R) : EReal :=
  Ideal.exp ((S p r - (Finset.univ : Finset P).fold max ⊥ (fun p' => S p' r)) * sixteenth)

/-- `one / Σ_p weight`. -/
def kInv (one sixteenth : EReal) (S : P → R → EReal) (r : R) : EReal :=
  Ideal.div one (∑ p, kWeight sixteenth S p r)

/-- `weight · (one / Σ weight)`. -/
def kAttn (one sixteenth : EReal) (S : P → R → EReal) (p : P) (r : R) : EReal :=
  kWeight sixteenth S p r * kInv one sixteenth S r

/-- `(Σ_p V c p · weight p r) · (one / Σ weight)`. -/
def kOut (one sixteenth : EReal) (V : C → P → EReal) (S : P → R → EReal) (c : C) (r : R) : EReal :=
  (∑ p, V c p * kWeight sixteenth S p r) * kInv one sixteenth S r

theorem kWeight_coe (s : P → R → ℝ) (p : P) (r : R) :
    kWeight (((1 / 16 : ℝ)) : EReal) (fun p r => ((s p r : ℝ) : EReal)) p r = ((weight s p r : ℝ) : EReal) := by
  unfold kWeight
  rw [fold_max_coe (fun p' => s p' r), ← EReal.coe_sub, ← EReal.coe_mul, exp_coe', weight_eq]

theorem kInv_coe (s : P → R → ℝ) (r : R) :
    kInv ((1 : ℝ) : EReal) (((1 / 16 : ℝ)) : EReal) (fun p r => ((s p r : ℝ) : EReal)) r
      = ((1 / total s r : ℝ) : EReal) := by
  unfold kInv
  rw [show (∑ p, kWeight (((1 / 16 : ℝ)) : EReal) (fun p r => ((s p r : ℝ) : EReal)) p r)
      = ((total s r : ℝ) : EReal) from by
    unfold total
    rw [coe_sum]
    exact Finset.sum_congr rfl fun p _ => kWeight_coe s p r]
  exact div_coe_coe (total_pos s r).ne' 1

theorem kAttn_coe (s : P → R → ℝ) (p : P) (r : R) :
    kAttn ((1 : ℝ) : EReal) (((1 / 16 : ℝ)) : EReal) (fun p r => ((s p r : ℝ) : EReal)) p r
      = ((attn s p r : ℝ) : EReal) := by
  unfold kAttn
  rw [kWeight_coe, kInv_coe, ← EReal.coe_mul, attn_eq]

theorem kOut_coe (v : C → P → ℝ) (s : P → R → ℝ) (c : C) (r : R) :
    kOut ((1 : ℝ) : EReal) (((1 / 16 : ℝ)) : EReal) (fun c p => ((v c p : ℝ) : EReal))
        (fun p r => ((s p r : ℝ) : EReal)) c r
      = ((out v s c r : ℝ) : EReal) := by
  unfold kOut
  rw [kInv_coe, show (∑ p, ((v c p : ℝ) : EReal) * kWeight (((1 / 16 : ℝ)) : EReal) (fun p r => ((s p r : ℝ) : EReal)) p r)
      = ((∑ p, v c p * weight s p r : ℝ) : EReal) from by
    rw [coe_sum]
    exact Finset.sum_congr rfl fun p _ => by rw [kWeight_coe, EReal.coe_mul],
    ← EReal.coe_mul, out_eq]

/-! ## The second route: divide first, divide by the sum, sum the products -/

/-- `S / sixteen`. -/
def rScaled (sixteen : EReal) (S : P → R → EReal) (p : P) (r : R) : EReal := Ideal.div (S p r) sixteen

/-- The maximum over the key positions of the scaled scores, joined with -∞ once more. -/
def rMax (sixteen : EReal) (S : P → R → EReal) (r : R) : EReal :=
  max ⊥ ((Finset.univ : Finset P).fold max ⊥ (fun p' => rScaled sixteen S p' r))

/-- `exp (S/16 - max)`. -/
def rWeight (sixteen : EReal) (S : P → R → EReal) (p : P) (r : R) : EReal :=
  Ideal.exp (rScaled sixteen S p r - rMax sixteen S r)

/-- `weight / (zero + Σ weight)`. -/
def rAttn (zero sixteen : EReal) (S : P → R → EReal) (p : P) (r : R) : EReal :=
  Ideal.div (rWeight sixteen S p r) (zero + ∑ p', rWeight sixteen S p' r)

/-- `Σ_p V c p · attention p r`. -/
def rOut (zero sixteen : EReal) (V : C → P → EReal) (S : P → R → EReal) (c : C) (r : R) : EReal :=
  ∑ p, V c p * rAttn zero sixteen S p r

theorem rScaled_coe (s : P → R → ℝ) (p : P) (r : R) :
    rScaled ((16 : ℝ) : EReal) (fun p r => ((s p r : ℝ) : EReal)) p r = ((s p r / 16 : ℝ) : EReal) := by
  unfold rScaled
  exact div_coe_coe (by norm_num) _

theorem rMax_coe (s : P → R → ℝ) (r : R) :
    rMax ((16 : ℝ) : EReal) (fun p r => ((s p r : ℝ) : EReal)) r
      = ((top (fun p' => s p' r / 16) : ℝ) : EReal) := by
  unfold rMax
  rw [max_bot_left', show (fun p' => rScaled ((16 : ℝ) : EReal) (fun p r => ((s p r : ℝ) : EReal)) p' r)
      = fun p' => ((s p' r / 16 : ℝ) : EReal) from funext fun p' => rScaled_coe s p' r]
  exact fold_max_coe (fun p' => s p' r / 16)

theorem rWeight_coe (s : P → R → ℝ) (p : P) (r : R) :
    rWeight ((16 : ℝ) : EReal) (fun p r => ((s p r : ℝ) : EReal)) p r = ((weight s p r : ℝ) : EReal) := by
  unfold rWeight
  rw [rScaled_coe, rMax_coe, ← EReal.coe_sub, exp_coe']
  rfl

theorem rAttn_coe (s : P → R → ℝ) (p : P) (r : R) :
    rAttn ((0 : ℝ) : EReal) ((16 : ℝ) : EReal) (fun p r => ((s p r : ℝ) : EReal)) p r
      = ((attn s p r : ℝ) : EReal) := by
  unfold rAttn
  rw [rWeight_coe, show (∑ p', rWeight ((16 : ℝ) : EReal) (fun p r => ((s p r : ℝ) : EReal)) p' r)
      = ((total s r : ℝ) : EReal) from by
    unfold total
    rw [coe_sum]
    exact Finset.sum_congr rfl fun p' _ => rWeight_coe s p' r,
    ← EReal.coe_add, zero_add]
  exact div_coe_coe (total_pos s r).ne' _

theorem rOut_coe (v : C → P → ℝ) (s : P → R → ℝ) (c : C) (r : R) :
    rOut ((0 : ℝ) : EReal) ((16 : ℝ) : EReal) (fun c p => ((v c p : ℝ) : EReal))
        (fun p r => ((s p r : ℝ) : EReal)) c r
      = ((out v s c r : ℝ) : EReal) := by
  unfold rOut out
  rw [coe_sum]
  exact Finset.sum_congr rfl fun p _ => by rw [rAttn_coe, EReal.coe_mul]

/-! ## Scores of coerced reals -/

/-- A sum of products of coerced reals is the coerced sum of products. -/
theorem sum_mul_coe (a b : C → ℝ) : (∑ c, ((a c : ℝ) : EReal) * ((b c : ℝ) : EReal)) = ((∑ c, a c * b c : ℝ) : EReal) := by
  rw [coe_sum]
  exact Finset.sum_congr rfl fun c _ => (EReal.coe_mul _ _).symm

/-! ## The words of the two scales -/

theorem ofBits_f32_sixteenth : Ideal.ofBits .f32 0x3D800000#32 = ((1 / 16 : ℝ) : EReal) := by
  simp [Ideal.ofBits, Ideal.ieee, -EReal.coe_mul]; norm_num

theorem ofBits_f32_sixteen : Ideal.ofBits .f32 0x41800000#32 = ((16 : ℝ) : EReal) := by
  simp [Ideal.ofBits, Ideal.ieee, -EReal.coe_mul]; norm_num

end Cert.KeySoftmax

end
-- ==== Proof.Payload.lean ====
/-
  What the kernel's body computes from the three blocks it loads, read at an index.

  A block is one (batch, time) slice, [1, 1, 256, 1024]. The body forms the scores `Σ_c x0[c, p] · x1[c, r]` by a
  matrix product contracting the channel axis of both operands, takes the maximum over the key axis `p` of each
  column, exponentiates `(score - maximum) · (1/16)`, sums each column, forms `1 / sum`, and stores
  `weight · (1 / sum)` as the attention block; the output block is the matrix product of the third block with the
  weights over the key axis, times `1 / sum`. A change of float format is the identity on extended reals, so the
  roundings to the narrower format before each product drop out. This is the first arithmetic route of the
  softmax over key positions.
-/
import proofs.«178597_j74929999446751_2_alg».proof.Proof.Gen.KernelIdeal.Skeleton
import proofs.«178597_j74929999446751_2_alg».proof.Proof.KeySoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelPayload

open Cert.KernelIdeal Cert.KernelIdeal.Gen
open Idealize.ShloMosaic Idealize.ShloMosaic.ValueIdx Cert.KeySoftmax Cert.LibERealFinite

/-- A staged block of an input or of the output array: one (batch, time) slice. -/
abbrev Blk := Vec Ideal S1x1x256x1024 .f32

/-- The two unit coordinates of a block index. -/
abbrev u0 : Fin 1 := 0

/-- The scores of the slice two blocks hold: key position `p` against query position `r`. -/
def Sc (x0 x1 : Blk) (p r : Fin 1024) : EReal :=
  ∑ c : Fin 256, x0 (ix4 u0 u0 c p) * x1 (ix4 u0 u0 c r)

/-- The third block as a channel-by-position matrix. -/
def Vb (x2 : Blk) (c : Fin 256) (p : Fin 1024) : EReal := x2 (ix4 u0 u0 c p)

/-! ## Layout steps -/

/-- A block viewed as a [256, 1024] matrix reads the block at (0, 0, c, p). -/
theorem squeeze_at (x : Blk) (c : Fin 256) (p : Fin 1024) :
    shapeCast S256x1024 x shapeCasts_S1x1x256x1024_S256x1024 (ix2 c p) = x (ix4 u0 u0 c p) :=
  shapeCast_apply x _ _ _ (by
    rw [Shape.rowMajor_val_four, Shape.rowMajor_val_two]
    show ((0 * 1 + 0) * 256 + c.val) * 1024 + p.val = c.val * 1024 + p.val
    omega)

/-- A [256, 1024] matrix stored as a block reads the matrix at (c, r). -/
theorem unsqueeze_out_at (y : FVec Ideal S256x1024 .f32) (c : Fin 256) (r : Fin 1024) :
    shapeCast S1x1x256x1024 y shapeCasts_S256x1024_S1x1x256x1024 (ix4 u0 u0 c r) = y (ix2 c r) :=
  shapeCast_apply y _ _ _ (by
    rw [Shape.rowMajor_val_four, Shape.rowMajor_val_two]
    show c.val * 1024 + r.val = ((0 * 1 + 0) * 256 + c.val) * 1024 + r.val
    omega)

/-- A [1024, 1024] matrix stored as an attention block reads the matrix at (p, r). -/
theorem unsqueeze_att_at (y : FVec Ideal S1024x1024 .f32) (p r : Fin 1024) :
    shapeCast S1x1x1024x1024 y shapeCasts_S1024x1024_S1x1x1024x1024 (ix4 u0 u0 p r) = y (ix2 p r) :=
  shapeCast_apply y _ _ _ (by
    rw [Shape.rowMajor_val_four, Shape.rowMajor_val_two]
    show p.val * 1024 + r.val = ((0 * 1 + 0) * 1024 + p.val) * 1024 + r.val
    omega)

/-- A per-column vector, kept as one row and broadcast over the key axis, reads the vector at the column. -/
theorem row_over_keys_at (w : FVec Ideal S1024 .f32) (p r : Fin 1024) :
    broadcastTo S1024x1024 (shapeCast S1x1024 w shapeCasts_S1024_S1x1024) broadcasts_S1x1024_S1024x1024 (ix2 p r)
      = w (ix1 r) :=
  (broadcastTo_1b_ab_apply _ broadcasts_S1x1024_S1024x1024 p r).trans
    (shapeCast_a_1a_apply w shapeCasts_S1024_S1x1024 0 r)

/-- A one-row matrix broadcast over the channels reads the row at the column. -/
theorem row_over_channels_at (w : FVec Ideal S1x1024 .f32) (c : Fin 256) (r : Fin 1024) :
    broadcastTo S256x1024 w broadcasts_S1x1024_S256x1024 (ix2 c r) = w (ix2 u0 r) :=
  broadcastTo_1b_ab_apply w broadcasts_S1x1024_S256x1024 c r

/-- A one-row matrix broadcast over the key axis reads the row at the column. -/
theorem row_over_keys2_at (w : FVec Ideal S1x1024 .f32) (p r : Fin 1024) :
    broadcastTo S1024x1024 w broadcasts_S1x1024_S1024x1024 (ix2 p r) = w (ix2 u0 r) :=
  broadcastTo_1b_ab_apply w broadcasts_S1x1024_S1024x1024 p r

/-! ## The two matrix products -/

/-- The coordinates of the first product's operand indices: it contracts axis 0 of both operands and keeps axis 1 of
    each, so at entry (p, r) and contraction position `k` the left operand is read at (k, p), the right at (k, r). -/
theorem kq_lhs_0 (j : S1024x1024.Idx) (q : dot_S256x1024_S256x1024_S1024x1024_0_0_1_1_n_n.contr.Idx) :
    (dot_S256x1024_S256x1024_S1024x1024_0_0_1_1_n_n.lhsIdx j q 0).val = (q ⟨0, by decide⟩).val :=
  dot_S256x1024_S256x1024_S1024x1024_0_0_1_1_n_n.lhsIdx_val_of_single rfl j q
theorem kq_lhs_1 (j : S1024x1024.Idx) (q : dot_S256x1024_S256x1024_S1024x1024_0_0_1_1_n_n.contr.Idx) :
    (dot_S256x1024_S256x1024_S1024x1024_0_0_1_1_n_n.lhsIdx j q 1).val = (j 0).val := by
  unfold DotDims.lhsIdx
  rw [dif_neg (show ¬(1 : Fin S256x1024.rank) ∈ dot_S256x1024_S256x1024_S1024x1024_0_0_1_1_n_n.lhsBatch by decide),
    dif_pos (show (1 : Fin S256x1024.rank) ∈ dot_S256x1024_S256x1024_S1024x1024_0_0_1_1_n_n.lhsNonContracting by decide)]
  rfl
theorem kq_rhs_0 (j : S1024x1024.Idx) (q : dot_S256x1024_S256x1024_S1024x1024_0_0_1_1_n_n.contr.Idx) :
    (dot_S256x1024_S256x1024_S1024x1024_0_0_1_1_n_n.rhsIdx j q 0).val = (q ⟨0, by decide⟩).val :=
  dot_S256x1024_S256x1024_S1024x1024_0_0_1_1_n_n.rhsIdx_val_of_single rfl j q
theorem kq_rhs_1 (j : S1024x1024.Idx) (q : dot_S256x1024_S256x1024_S1024x1024_0_0_1_1_n_n.contr.Idx) :
    (dot_S256x1024_S256x1024_S1024x1024_0_0_1_1_n_n.rhsIdx j q 1).val = (j 1).val := by
  unfold DotDims.rhsIdx
  rw [dif_neg (show ¬(1 : Fin S256x1024.rank) ∈ dot_S256x1024_S256x1024_S1024x1024_0_0_1_1_n_n.rhsBatch by decide),
    dif_pos (show (1 : Fin S256x1024.rank) ∈ dot_S256x1024_S256x1024_S1024x1024_0_0_1_1_n_n.rhsNonContracting by decide)]
  rfl

/-- The first product contracts axis 0 of both operands: entry (p, r) is `Σ_c a[c, p] · b[c, r]`. -/
theorem keyT_query_at (a b : FVec Ideal S256x1024 .bf16) (p r : Fin 1024) :
    matmul dot_S256x1024_S256x1024_S1024x1024_0_0_1_1_n_n none a b (constant S1024x1024 .f32 0x00000000#32) (ix2 p r)
      = ∑ c : Fin 256, a (ix2 c p) * b (ix2 c r) := by
  refine (Ideal.matmul_constant_zero_apply dot_S256x1024_S256x1024_S1024x1024_0_0_1_1_n_n none a b (ix2 p r)).trans ?_
  rw [← Equiv.sum_comp (contrEquiv1 dot_S256x1024_S256x1024_S1024x1024_0_0_1_1_n_n 256 rfl rfl).symm]
  refine Finset.sum_congr rfl fun c _ => ?_
  have hk := contrEquiv1_symm_val dot_S256x1024_S256x1024_S1024x1024_0_0_1_1_n_n 256 rfl rfl c
  have el : dot_S256x1024_S256x1024_S1024x1024_0_0_1_1_n_n.lhsIdx (ix2 p r)
      ((contrEquiv1 dot_S256x1024_S256x1024_S1024x1024_0_0_1_1_n_n 256 rfl rfl).symm c) = ix2 c p :=
    funext fun ax => Fin.ext (by
      match ax with
      | ⟨0, _⟩ => exact (kq_lhs_0 _ _).trans hk
      | ⟨1, _⟩ => exact kq_lhs_1 _ _)
  have er : dot_S256x1024_S256x1024_S1024x1024_0_0_1_1_n_n.rhsIdx (ix2 p r)
      ((contrEquiv1 dot_S256x1024_S256x1024_S1024x1024_0_0_1_1_n_n 256 rfl rfl).symm c) = ix2 c r :=
    funext fun ax => Fin.ext (by
      match ax with
      | ⟨0, _⟩ => exact (kq_rhs_0 _ _).trans hk
      | ⟨1, _⟩ => exact kq_rhs_1 _ _)
  rw [el, er]

/-- The coordinates of the second product's operand indices: it contracts axis 1 of the left operand with axis 0 of the
    right, so at entry (c, r) and contraction position `k` the left operand is read at (c, k), the right at (k, r). -/
theorem vw_lhs_0 (j : S256x1024.Idx) (q : dot_S256x1024_S1024x1024_S256x1024_1_0_0_1_n_n.contr.Idx) :
    (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem vw_lhs_1 (j : S256x1024.Idx) (q : dot_S256x1024_S1024x1024_S256x1024_1_0_0_1_n_n.contr.Idx) :
    (dot_S256x1024_S1024x1024_S256x1024_1_0_0_1_n_n.lhsIdx j q 1).val = (q ⟨0, by decide⟩).val :=
  dot_S256x1024_S1024x1024_S256x1024_1_0_0_1_n_n.lhsIdx_val_of_single rfl j q
theorem vw_rhs_0 (j : S256x1024.Idx) (q : dot_S256x1024_S1024x1024_S256x1024_1_0_0_1_n_n.contr.Idx) :
    (dot_S256x1024_S1024x1024_S256x1024_1_0_0_1_n_n.rhsIdx j q 0).val = (q ⟨0, by decide⟩).val :=
  dot_S256x1024_S1024x1024_S256x1024_1_0_0_1_n_n.rhsIdx_val_of_single rfl j q
theorem vw_rhs_1 (j : S256x1024.Idx) (q : dot_S256x1024_S1024x1024_S256x1024_1_0_0_1_n_n.contr.Idx) :
    (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The second product contracts the key axis: entry (c, r) is `Σ_p a[c, p] · b[p, r]`. -/
theorem value_weights_at (a : FVec Ideal S256x1024 .bf16) (b : FVec Ideal S1024x1024 .bf16) (c : Fin 256) (r : Fin 1024) :
    matmul dot_S256x1024_S1024x1024_S256x1024_1_0_0_1_n_n none a b (constant S256x1024 .f32 0x00000000#32) (ix2 c r)
      = ∑ p : Fin 1024, a (ix2 c p) * b (ix2 p r) := by
  refine (Ideal.matmul_constant_zero_apply dot_S256x1024_S1024x1024_S256x1024_1_0_0_1_n_n none a b (ix2 c r)).trans ?_
  rw [← Equiv.sum_comp (contrEquiv1 dot_S256x1024_S1024x1024_S256x1024_1_0_0_1_n_n 1024 rfl rfl).symm]
  refine Finset.sum_congr rfl fun p _ => ?_
  have hk := contrEquiv1_symm_val dot_S256x1024_S1024x1024_S256x1024_1_0_0_1_n_n 1024 rfl rfl p
  have el : dot_S256x1024_S1024x1024_S256x1024_1_0_0_1_n_n.lhsIdx (ix2 c r)
      ((contrEquiv1 dot_S256x1024_S1024x1024_S256x1024_1_0_0_1_n_n 1024 rfl rfl).symm p) = ix2 c p :=
    funext fun ax => Fin.ext (by
      match ax with
      | ⟨0, _⟩ => exact vw_lhs_0 _ _
      | ⟨1, _⟩ => exact (vw_lhs_1 _ _).trans hk)
  have er : dot_S256x1024_S1024x1024_S256x1024_1_0_0_1_n_n.rhsIdx (ix2 c r)
      ((contrEquiv1 dot_S256x1024_S1024x1024_S256x1024_1_0_0_1_n_n 1024 rfl rfl).symm p) = ix2 p r :=
    funext fun ax => Fin.ext (by
      match ax with
      | ⟨0, _⟩ => exact (vw_rhs_0 _ _).trans hk
      | ⟨1, _⟩ => exact vw_rhs_1 _ _)
  rw [el, er]

/-! ## The two reductions over the key axis -/

/-- The maximum over the key axis of column `r`, folded from -∞. -/
theorem col_max_at (s : FVec Ideal S1024x1024 .f32) (r : Fin 1024) :
    multiReduction .maximumf [0] S1024 s 0xFF800000#32 reduces_S1024x1024_S1024 (.inl rfl) rfl (ix1 r)
      = (Finset.univ : Finset (Fin 1024)).fold max ⊥ (fun p => s (ix2 p r)) := by
  refine (Ideal.multiReduction_maximumf_single s 0xFF800000#32 reduces_S1024x1024_S1024 (.inl rfl) rfl (ix1 r)).trans ?_
  have e : (s ∘ reduces_S1024x1024_S1024.lift (ix1 r)) = fun p : Fin 1024 => s (ix2 p r) :=
    funext fun p => congrArg s (funext fun ax => Fin.ext (by
      match ax with | ⟨0, _⟩ => rfl | ⟨1, _⟩ => rfl))
  rw [e]
  show (Finset.univ : Finset (Fin 1024)).fold max (Ideal.ofBits .f32 0xFF800000#32) _ = _
  rw [ofBits_f32_neg_inf]

/-- The sum over the key axis of column `r`. -/
theorem col_sum_at (s : FVec Ideal S1024x1024 .f32) (r : Fin 1024) :
    multiReduction .add [0] S1024 s 0x00000000#32 reduces_S1024x1024_S1024 (.inl rfl) rfl (ix1 r)
      = ∑ p : Fin 1024, s (ix2 p r) := by
  refine (Ideal.multiReduction_add_single s 0x00000000#32 reduces_S1024x1024_S1024 (.inl rfl) rfl (ix1 r)).trans ?_
  exact Finset.sum_congr rfl fun p _ => congrArg s (funext fun ax => Fin.ext (by
    match ax with | ⟨0, _⟩ => rfl | ⟨1, _⟩ => rfl))

/-! ## The body's values, stage by stage -/

/-- The scores matrix of two blocks. -/
def scores (x0 x1 : Blk) : FVec Ideal S1024x1024 .f32 :=
  matmul dot_S256x1024_S256x1024_S1024x1024_0_0_1_1_n_n none
    (truncf .bf16 (shapeCast S256x1024 x0 shapeCasts_S1x1x256x1024_S256x1024) bitsLt_bf16_f32)
    (truncf .bf16 (shapeCast S256x1024 x1 shapeCasts_S1x1x256x1024_S256x1024) bitsLt_bf16_f32)
    (constant S1024x1024 .f32 0x00000000#32)

theorem scores_at (x0 x1 : Blk) (p r : Fin 1024) : scores x0 x1 (ix2 p r) = Sc x0 x1 p r := by
  unfold scores Sc
  refine (keyT_query_at _ _ p r).trans ?_
  refine Finset.sum_congr rfl fun c _ => ?_
  rw [truncf_apply, truncf_apply, squeeze_at, squeeze_at]

/-- The weights as a function of the scores matrix: `exp ((s - column maximum) · (1/16))`. -/
def weightsOf (s : FVec Ideal S1024x1024 .f32) : FVec Ideal S1024x1024 .f32 :=
  exp (mulf (subf s (broadcastTo S1024x1024 (shapeCast S1x1024
      (multiReduction .maximumf [0] S1024 s 0xFF800000#32 reduces_S1024x1024_S1024 (.inl rfl) rfl)
      shapeCasts_S1024_S1x1024) broadcasts_S1x1024_S1024x1024))
    (broadcast S1024x1024 (Scalar.ofBits .f32 0x3D800000#32)))

theorem weightsOf_at (s : FVec Ideal S1024x1024 .f32) (p r : Fin 1024) :
    weightsOf s (ix2 p r)
      = Ideal.exp ((s (ix2 p r) - (Finset.univ : Finset (Fin 1024)).fold max ⊥ (fun p' => s (ix2 p' r)))
          * Ideal.ofBits .f32 0x3D800000#32) := by
  show Ideal.exp ((s (ix2 p r) - broadcastTo S1024x1024 (shapeCast S1x1024
      (multiReduction .maximumf [0] S1024 s 0xFF800000#32 reduces_S1024x1024_S1024 (.inl rfl) rfl)
      shapeCasts_S1024_S1x1024) broadcasts_S1x1024_S1024x1024 (ix2 p r)) * Ideal.ofBits .f32 0x3D800000#32) = _
  rw [row_over_keys_at, col_max_at]

/-- The body's weights are `weightsOf` of its scores. -/
theorem pay2_eq (x0 x1 : Blk) : k0_pay2 x0 x1 = weightsOf (scores x0 x1) := rfl

/-- The weights at (p, r), in the first arithmetic route. -/
theorem pay2_at (x0 x1 : Blk) (p r : Fin 1024) :
    k0_pay2 x0 x1 (ix2 p r) = kWeight (Ideal.ofBits .f32 0x3D800000#32) (Sc x0 x1) p r := by
  rw [pay2_eq, weightsOf_at]
  unfold kWeight
  rw [scores_at, show (fun p' => scores x0 x1 (ix2 p' r)) = fun p' => Sc x0 x1 p' r from
    funext fun p' => scores_at x0 x1 p' r]

/-- The reciprocal of the column sums as a function of the weights matrix. -/
def invOf (e : FVec Ideal S1024x1024 .f32) : FVec Ideal S1x1024 .f32 :=
  divf (broadcast S1x1024 (Scalar.ofBits .f32 0x3F800000#32))
    (shapeCast S1x1024 (multiReduction .add [0] S1024 e 0x00000000#32 reduces_S1024x1024_S1024 (.inl rfl) rfl)
      shapeCasts_S1024_S1x1024)

theorem invOf_at (e : FVec Ideal S1024x1024 .f32) (r : Fin 1024) :
    invOf e (ix2 u0 r) = Ideal.div (Ideal.ofBits .f32 0x3F800000#32) (∑ p : Fin 1024, e (ix2 p r)) := by
  show Ideal.div (Ideal.ofBits .f32 0x3F800000#32) (shapeCast S1x1024
      (multiReduction .add [0] S1024 e 0x00000000#32 reduces_S1024x1024_S1024 (.inl rfl) rfl)
      shapeCasts_S1024_S1x1024 (ix2 u0 r)) = _
  rw [shapeCast_a_1a_apply, col_sum_at]

theorem pay3_eq (x0 x1 : Blk) : k0_pay3 x0 x1 = invOf (k0_pay2 x0 x1) := rfl

/-- The reciprocal at column `r`, in the first arithmetic route. -/
theorem pay3_at (x0 x1 : Blk) (r : Fin 1024) :
    k0_pay3 x0 x1 (ix2 u0 r)
      = kInv (Ideal.ofBits .f32 0x3F800000#32) (Ideal.ofBits .f32 0x3D800000#32) (Sc x0 x1) r := by
  rw [pay3_eq, invOf_at]
  unfold kInv
  rw [show (∑ p : Fin 1024, k0_pay2 x0 x1 (ix2 p r))
      = ∑ p : Fin 1024, kWeight (Ideal.ofBits .f32 0x3D800000#32) (Sc x0 x1) p r from
    Finset.sum_congr rfl fun p _ => pay2_at x0 x1 p r]

/-- The attention block at (0, 0, p, r), in the first arithmetic route. -/
theorem pay4_at (x0 x1 : Blk) (p r : Fin 1024) :
    k0_pay4 x0 x1 (ix4 u0 u0 p r)
      = kAttn (Ideal.ofBits .f32 0x3F800000#32) (Ideal.ofBits .f32 0x3D800000#32) (Sc x0 x1) p r := by
  unfold k0_pay4
  refine (unsqueeze_att_at _ p r).trans ?_
  show k0_pay2 x0 x1 (ix2 p r) * broadcastTo S1024x1024 (k0_pay3 x0 x1) broadcasts_S1x1024_S1024x1024 (ix2 p r) = _
  rw [row_over_keys2_at, pay2_at, pay3_at]
  rfl

/-- The output matrix at (c, r), in the first arithmetic route. -/
theorem pay5_at (x0 x1 x2 : Blk) (c : Fin 256) (r : Fin 1024) :
    k0_pay5 x0 x1 x2 (ix2 c r)
      = kOut (Ideal.ofBits .f32 0x3F800000#32) (Ideal.ofBits .f32 0x3D800000#32) (Vb x2) (Sc x0 x1) c r := by
  unfold k0_pay5
  show matmul dot_S256x1024_S1024x1024_S256x1024_1_0_0_1_n_n none
      (truncf .bf16 (shapeCast S256x1024 x2 shapeCasts_S1x1x256x1024_S256x1024) bitsLt_bf16_f32)
      (truncf .bf16 (k0_pay2 x0 x1) bitsLt_bf16_f32) (constant S256x1024 .f32 0x00000000#32) (ix2 c r)
    * broadcastTo S256x1024 (k0_pay3 x0 x1) broadcasts_S1x1024_S256x1024 (ix2 c r) = _
  rw [value_weights_at, row_over_channels_at, pay3_at]
  unfold kOut Vb
  refine congrArg (· * _) (Finset.sum_congr rfl fun p _ => ?_)
  rw [truncf_apply, truncf_apply, squeeze_at, pay2_at]

/-- The output block at (0, 0, c, r). -/
theorem pay1_pay5_at (x0 x1 x2 : Blk) (c : Fin 256) (r : Fin 1024) :
    k0_pay1 (k0_pay5 x0 x1 x2) (ix4 u0 u0 c r)
      = kOut (Ideal.ofBits .f32 0x3F800000#32) (Ideal.ofBits .f32 0x3D800000#32) (Vb x2) (Sc x0 x1) c r := by
  unfold k0_pay1
  exact (unsqueeze_out_at _ c r).trans (pay5_at x0 x1 x2 c r)

/-! ## On blocks of coerced reals -/

/-- The attention block of two blocks holding the real matrices `kk`, `qq`. -/
theorem attn_block (x0 x1 : Blk) (kk qq : Fin 256 → Fin 1024 → ℝ)
    (h0 : ∀ c p, x0 (ix4 u0 u0 c p) = ((kk c p : ℝ) : EReal))
    (h1 : ∀ c p, x1 (ix4 u0 u0 c p) = ((qq c p : ℝ) : EReal)) (p r : Fin 1024) :
    k0_pay4 x0 x1 (ix4 u0 u0 p r) = ((attn (fun p r => ∑ c, kk c p * qq c r) p r : ℝ) : EReal) := by
  rw [pay4_at, show Sc x0 x1 = fun p r => (((∑ c, kk c p * qq c r : ℝ)) : EReal) from
    funext fun p => funext fun r => by
      unfold Sc
      rw [← sum_mul_coe]
      exact Finset.sum_congr rfl fun c _ => by rw [h0, h1],
    ofBits_f32_one, ofBits_f32_sixteenth]
  exact kAttn_coe _ p r

/-- The output block of three blocks holding the real matrices `kk`, `qq`, `vv`. -/
theorem out_block (x0 x1 x2 : Blk) (kk qq vv : Fin 256 → Fin 1024 → ℝ)
    (h0 : ∀ c p, x0 (ix4 u0 u0 c p) = ((kk c p : ℝ) : EReal))
    (h1 : ∀ c p, x1 (ix4 u0 u0 c p) = ((qq c p : ℝ) : EReal))
    (h2 : ∀ c p, x2 (ix4 u0 u0 c p) = ((vv c p : ℝ) : EReal)) (c : Fin 256) (r : Fin 1024) :
    k0_pay1 (k0_pay5 x0 x1 x2) (ix4 u0 u0 c r)
      = ((out vv (fun p r => ∑ c, kk c p * qq c r) c r : ℝ) : EReal) := by
  rw [pay1_pay5_at, show Sc x0 x1 = fun p r => (((∑ c, kk c p * qq c r : ℝ)) : EReal) from
    funext fun p => funext fun r => by
      unfold Sc
      rw [← sum_mul_coe]
      exact Finset.sum_congr rfl fun c _ => by rw [h0, h1],
    show Vb x2 = fun c p => ((vv c p : ℝ) : EReal) from funext fun c => funext fun p => h2 c p,
    ofBits_f32_one, ofBits_f32_sixteenth]
  exact kOut_coe vv _ c r

end Cert.KernelPayload

end
-- ==== Proof.Spec.lean ====
/-
  The two results as whole-array functions of three real arrays.

  The arrays `k`, `q`, `v` are indexed (batch, time, channel, position), [4, 8, 256, 1024]. For each (batch, time)
  slice the score of key position `p` against query position `r` is `Σ_c k[c, p] · q[c, r]`. The attention array,
  indexed (batch, time, key position, query position), holds the softmax of the scaled scores over the KEY
  positions; the output array, indexed (batch, time, channel, query position), holds
  `Σ_p v[c, p] · attention[p, r]`.
-/
import Idealize.ShloMosaic.Lib.ValueIdx
import proofs.«178597_j74929999446751_2_alg».proof.Proof.KeySoftmax

noncomputable section

open scoped BigOperators

namespace Cert.Spec

open Idealize.ShloMosaic Idealize.ShloMosaic.ValueIdx Cert.KeySoftmax

/-- (batch, time, channel, position). -/
abbrev Arr : Shape := ⟨4, ![4, 8, 256, 1024]⟩
/-- (batch, time, key position, query position). -/
abbrev Att : Shape := ⟨4, ![4, 8, 1024, 1024]⟩

/-- The channel-by-position matrix of one (batch, time) slice. -/
def slice (x : Arr.Idx → ℝ) (n : Fin 4) (t : Fin 8) (c : Fin 256) (p : Fin 1024) : ℝ := x (ix4 n t c p)

/-- The scores of one slice: key position `p` against query position `r`. -/
def score (k q : Arr.Idx → ℝ) (n : Fin 4) (t : Fin 8) (p r : Fin 1024) : ℝ :=
  ∑ c : Fin 256, slice k n t c p * slice q n t c r

/-- The attention of one slice at (key position, query position). -/
def attnAt (k q : Arr.Idx → ℝ) (n : Fin 4) (t : Fin 8) (p r : Fin 1024) : EReal :=
  ((attn (score k q n t) p r : ℝ) : EReal)

/-- The output of one slice at (channel, query position). -/
def outAt (k q v : Arr.Idx → ℝ) (n : Fin 4) (t : Fin 8) (c : Fin 256) (r : Fin 1024) : EReal :=
  ((out (slice v n t) (score k q n t) c r : ℝ) : EReal)

/-- The attention array. -/
def attnArr (k q : Arr.Idx → ℝ) : Att.Idx → EReal := fun i => attnAt k q (i 0) (i 1) (i 2) (i 3)

/-- The output array. -/
def outArr (k q v : Arr.Idx → ℝ) : Arr.Idx → EReal := fun i => outAt k q v (i 0) (i 1) (i 2) (i 3)

theorem attnArr_ix (k q : Arr.Idx → ℝ) (n : Fin 4) (t : Fin 8) (p r : Fin 1024) :
    attnArr k q (ix4 n t p r) = attnAt k q n t p r := rfl

theorem outArr_ix (k q v : Arr.Idx → ℝ) (n : Fin 4) (t : Fin 8) (c : Fin 256) (r : Fin 1024) :
    outArr k q v (ix4 n t c r) = outAt k q v n t c r := rfl

/-- The scores of coerced slices are the coerced scores. -/
theorem score_coe (k q : Arr.Idx → ℝ) (n : Fin 4) (t : Fin 8) (p r : Fin 1024) :
    (∑ c : Fin 256, ((k (ix4 n t c p) : ℝ) : EReal) * ((q (ix4 n t c r) : ℝ) : EReal))
      = ((score k q n t p r : ℝ) : EReal) :=
  sum_mul_coe (fun c => k (ix4 n t c p)) (fun c => q (ix4 n t c r))

end Cert.Spec

end
-- ==== Proof.KernelArrays.lean ====
/-
  The kernel's two output arrays after the run.

  The grid has one point per (batch, time) pair, and at a point every window's block is that pair's slice: block
  index (batch, time, 0, 0). So what a point writes back is the attention, and the output, of that slice computed
  from the three input slices — the block of the whole-array functions at that pair — and the 32 blocks tile each
  output array.
-/
import proofs.«178597_j74929999446751_2_alg».proof.Proof.Gen.KernelIdeal.Frame
import proofs.«178597_j74929999446751_2_alg».proof.Proof.Payload
import proofs.«178597_j74929999446751_2_alg».proof.Proof.Spec
import Idealize.ShloMosaic.Lib.Pipeline.Value
import Idealize.ShloMosaic.Lib.Tactic

noncomputable section

open scoped BigOperators

namespace Cert.KernelArrays

open Cert.KernelIdeal Cert.KernelIdeal.Gen
open Idealize.ShloMosaic Idealize.ShloMosaic.TcCoe Idealize.SL.Sem Idealize.ShloMosaic.ValueIdx
open Idealize.ShloMosaic.Pipeline (Dat)
open Cert.Spec Cert.KernelPayload Cert.KeySoftmax

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The index maps, decided over the grid -/

/-- Every window's block index at a point is (batch, time, 0, 0) of that point, the same pair for all five. -/
theorem idx_in0 : ∀ t : Fin cfg0.N, win0_0.index t (0 : Fin 4) = win0_4.index t (0 : Fin 4)
    ∧ win0_0.index t (1 : Fin 4) = win0_4.index t (1 : Fin 4)
    ∧ win0_0.index t (2 : Fin 4) = 0 ∧ win0_0.index t (3 : Fin 4) = 0 :=
  (by decide +kernel : ∀ t : Fin grid0.N, _)
theorem idx_in1 : ∀ t : Fin cfg0.N, win0_1.index t (0 : Fin 4) = win0_4.index t (0 : Fin 4)
    ∧ win0_1.index t (1 : Fin 4) = win0_4.index t (1 : Fin 4)
    ∧ win0_1.index t (2 : Fin 4) = 0 ∧ win0_1.index t (3 : Fin 4) = 0 :=
  (by decide +kernel : ∀ t : Fin grid0.N, _)
theorem idx_in2 : ∀ t : Fin cfg0.N, win0_2.index t (0 : Fin 4) = win0_4.index t (0 : Fin 4)
    ∧ win0_2.index t (1 : Fin 4) = win0_4.index t (1 : Fin 4)
    ∧ win0_2.index t (2 : Fin 4) = 0 ∧ win0_2.index t (3 : Fin 4) = 0 :=
  (by decide +kernel : ∀ t : Fin grid0.N, _)
theorem idx_out3 : ∀ t : Fin cfg0.N, win0_3.index t (0 : Fin 4) = win0_4.index t (0 : Fin 4)
    ∧ win0_3.index t (1 : Fin 4) = win0_4.index t (1 : Fin 4)
    ∧ win0_3.index t (2 : Fin 4) = 0 ∧ win0_3.index t (3 : Fin 4) = 0 :=
  (by decide +kernel : ∀ t : Fin grid0.N, _)
theorem idx_out4 : ∀ t : Fin cfg0.N, win0_4.index t (2 : Fin 4) = 0 ∧ win0_4.index t (3 : Fin 4) = 0
    ∧ win0_4.index t (0 : Fin 4) < 4 ∧ win0_4.index t (1 : Fin 4) < 8 :=
  (by decide +kernel : ∀ t : Fin grid0.N, _)

/-- Every (batch, time) pair is some point's. -/
theorem idx_onto : ∀ (a : Fin 4) (b : Fin 8), ∃ t : Fin cfg0.N,
    win0_4.index t (0 : Fin 4) = a.val ∧ win0_4.index t (1 : Fin 4) = b.val :=
  (by decide +kernel : ∀ (a : Fin 4) (b : Fin 8), ∃ t : Fin grid0.N,
    win0_4.index t (0 : Fin 4) = a.val ∧ win0_4.index t (1 : Fin 4) = b.val)

/-- The batch of point `t`. -/
abbrev bn (t : Fin cfg0.N) : Fin 4 := ⟨win0_4.index t (0 : Fin 4), (idx_out4 t).2.2.1⟩
/-- The time of point `t`. -/
abbrev bt (t : Fin cfg0.N) : Fin 8 := ⟨win0_4.index t (1 : Fin 4), (idx_out4 t).2.2.2⟩

/-! ## Where a block's element sits in its array -/

theorem emb_in0 (t : Fin cfg0.N) (ch : Fin 256) (p : Fin 1024) :
    ((cfg0.win 0).blk t).view.emb (ix4 u0 u0 ch p) = ix4 (bn t) (bt t) ch p := by
  obtain ⟨e0, e1, e2, e3⟩ := idx_in0 t
  funext a; apply Fin.ext
  match a with
  | ⟨0, _⟩ => show win0_0.index t (0 : Fin 4) * 1 + 1 * 0 = win0_4.index t (0 : Fin 4); omega
  | ⟨1, _⟩ => show win0_0.index t (1 : Fin 4) * 1 + 1 * 0 = win0_4.index t (1 : Fin 4); omega
  | ⟨2, _⟩ => show win0_0.index t (2 : Fin 4) * 256 + 1 * ch.val = ch.val; omega
  | ⟨3, _⟩ => show win0_0.index t (3 : Fin 4) * 1024 + 1 * p.val = p.val; omega

theorem emb_in1 (t : Fin cfg0.N) (ch : Fin 256) (p : Fin 1024) :
    ((cfg0.win 1).blk t).view.emb (ix4 u0 u0 ch p) = ix4 (bn t) (bt t) ch p := by
  obtain ⟨e0, e1, e2, e3⟩ := idx_in1 t
  funext a; apply Fin.ext
  match a with
  | ⟨0, _⟩ => show win0_1.index t (0 : Fin 4) * 1 + 1 * 0 = win0_4.index t (0 : Fin 4); omega
  | ⟨1, _⟩ => show win0_1.index t (1 : Fin 4) * 1 + 1 * 0 = win0_4.index t (1 : Fin 4); omega
  | ⟨2, _⟩ => show win0_1.index t (2 : Fin 4) * 256 + 1 * ch.val = ch.val; omega
  | ⟨3, _⟩ => show win0_1.index t (3 : Fin 4) * 1024 + 1 * p.val = p.val; omega

theorem emb_in2 (t : Fin cfg0.N) (ch : Fin 256) (p : Fin 1024) :
    ((cfg0.win 2).blk t).view.emb (ix4 u0 u0 ch p) = ix4 (bn t) (bt t) ch p := by
  obtain ⟨e0, e1, e2, e3⟩ := idx_in2 t
  funext a; apply Fin.ext
  match a with
  | ⟨0, _⟩ => show win0_2.index t (0 : Fin 4) * 1 + 1 * 0 = win0_4.index t (0 : Fin 4); omega
  | ⟨1, _⟩ => show win0_2.index t (1 : Fin 4) * 1 + 1 * 0 = win0_4.index t (1 : Fin 4); omega
  | ⟨2, _⟩ => show win0_2.index t (2 : Fin 4) * 256 + 1 * ch.val = ch.val; omega
  | ⟨3, _⟩ => show win0_2.index t (3 : Fin 4) * 1024 + 1 * p.val = p.val; omega

theorem emb_out3 (t : Fin cfg0.N) (ch : Fin 256) (r : Fin 1024) :
    ((cfg0.win 3).blk t).view.emb (ix4 u0 u0 ch r) = ix4 (bn t) (bt t) ch r := by
  obtain ⟨e0, e1, e2, e3⟩ := idx_out3 t
  funext a; apply Fin.ext
  match a with
  | ⟨0, _⟩ => show win0_3.index t (0 : Fin 4) * 1 + 1 * 0 = win0_4.index t (0 : Fin 4); omega
  | ⟨1, _⟩ => show win0_3.index t (1 : Fin 4) * 1 + 1 * 0 = win0_4.index t (1 : Fin 4); omega
  | ⟨2, _⟩ => show win0_3.index t (2 : Fin 4) * 256 + 1 * ch.val = ch.val; omega
  | ⟨3, _⟩ => show win0_3.index t (3 : Fin 4) * 1024 + 1 * r.val = r.val; omega

theorem emb_out4 (t : Fin cfg0.N) (p r : Fin 1024) :
    ((cfg0.win 4).blk t).view.emb (ix4 u0 u0 p r) = ix4 (bn t) (bt t) p r := by
  obtain ⟨e2, e3, -, -⟩ := idx_out4 t
  funext a; apply Fin.ext
  match a with
  | ⟨0, _⟩ => show win0_4.index t (0 : Fin 4) * 1 + 1 * 0 = win0_4.index t (0 : Fin 4); omega
  | ⟨1, _⟩ => show win0_4.index t (1 : Fin 4) * 1 + 1 * 0 = win0_4.index t (1 : Fin 4); omega
  | ⟨2, _⟩ => show win0_4.index t (2 : Fin 4) * 1024 + 1 * p.val = p.val; omega
  | ⟨3, _⟩ => show win0_4.index t (3 : Fin 4) * 1024 + 1 * r.val = r.val; omega

/-! ## The input blocks, when the arrays hold coerced reals -/

variable (k q v : Arr.Idx → ℝ)

theorem iblk0_at (c : Dev nD) (t : Fin cfg0.N)
    (hk : ∀ i : S4x8x256x1024.Idx, (V m c main_v0 : S4x8x256x1024.Idx → EReal) i = ((k i : ℝ) : EReal))
    (ch : Fin 256) (p : Fin 1024) :
    (iblk m c 0 t : Vec Ideal S1x1x256x1024 .f32) (ix4 u0 u0 ch p) = ((slice k (bn t) (bt t) ch p : ℝ) : EReal) := by
  unfold iblk
  rw [View.read_apply]
  show (V m c main_v0 : S4x8x256x1024.Idx → EReal) (((cfg0.win 0).blk t).view.emb (ix4 u0 u0 ch p)) = _
  rw [emb_in0 t ch p]
  exact hk _

theorem iblk1_at (c : Dev nD) (t : Fin cfg0.N)
    (hq : ∀ i : S4x8x256x1024.Idx, (V m c main_v1 : S4x8x256x1024.Idx → EReal) i = ((q i : ℝ) : EReal))
    (ch : Fin 256) (p : Fin 1024) :
    (iblk m c 1 t : Vec Ideal S1x1x256x1024 .f32) (ix4 u0 u0 ch p) = ((slice q (bn t) (bt t) ch p : ℝ) : EReal) := by
  unfold iblk
  rw [View.read_apply]
  show (V m c main_v1 : S4x8x256x1024.Idx → EReal) (((cfg0.win 1).blk t).view.emb (ix4 u0 u0 ch p)) = _
  rw [emb_in1 t ch p]
  exact hq _

theorem iblk2_at (c : Dev nD) (t : Fin cfg0.N)
    (hv : ∀ i : S4x8x256x1024.Idx, (V m c main_v2 : S4x8x256x1024.Idx → EReal) i = ((v i : ℝ) : EReal))
    (ch : Fin 256) (p : Fin 1024) :
    (iblk m c 2 t : Vec Ideal S1x1x256x1024 .f32) (ix4 u0 u0 ch p) = ((slice v (bn t) (bt t) ch p : ℝ) : EReal) := by
  unfold iblk
  rw [View.read_apply]
  show (V m c main_v2 : S4x8x256x1024.Idx → EReal) (((cfg0.win 2).blk t).view.emb (ix4 u0 u0 ch p)) = _
  rw [emb_in2 t ch p]
  exact hv _

/-! ## What a point writes back -/

/-- Point `t` writes back block `t` of the attention array. -/
theorem flushed4_eq (c : Dev nD)
    (hk : ∀ i : S4x8x256x1024.Idx, (V m c main_v0 : S4x8x256x1024.Idx → EReal) i = ((k i : ℝ) : EReal))
    (hq : ∀ i : S4x8x256x1024.Idx, (V m c main_v1 : S4x8x256x1024.Idx → EReal) i = ((q i : ℝ) : EReal))
    (t : Fin cfg0.N) :
    (dats m 0 c).flushed 4 t = ((cfg0.win 4).blk t).view.read (Elt Ideal) (attnArr k q) := by
  show (cfg0.win 4).cut (grid0.coords t) ((dats m 0 c).after 4 t) = _
  rw [after0_4]
  unfold out0_4
  rw [View.canon_unit_zero hz]
  simp only [View.ld_unit_zero (S := S1x1x256x1024) hz]
  funext j
  obtain ⟨a, b, p, r, rfl⟩ : ∃ (a b : Fin 1) (p r : Fin 1024), j = ix4 a b p r :=
    ⟨j 0, j 1, j 2, j 3, eq_ix4 j⟩
  obtain rfl : a = u0 := Subsingleton.elim _ _
  obtain rfl : b = u0 := Subsingleton.elim _ _
  show k0_pay4 (iblk m c 0 t) (iblk m c 1 t) (ix4 u0 u0 p r)
    = attnArr k q (((cfg0.win 4).blk t).view.emb (ix4 u0 u0 p r))
  refine (attn_block (iblk m c 0 t) (iblk m c 1 t) (slice k (bn t) (bt t)) (slice q (bn t) (bt t))
    (fun ch p' => iblk0_at m k c t hk ch p') (fun ch p' => iblk1_at m q c t hq ch p') p r).trans ?_
  rw [emb_out4 t p r]
  rfl

/-- Point `t` writes back block `t` of the output array. -/
theorem flushed3_eq (c : Dev nD)
    (hk : ∀ i : S4x8x256x1024.Idx, (V m c main_v0 : S4x8x256x1024.Idx → EReal) i = ((k i : ℝ) : EReal))
    (hq : ∀ i : S4x8x256x1024.Idx, (V m c main_v1 : S4x8x256x1024.Idx → EReal) i = ((q i : ℝ) : EReal))
    (hv : ∀ i : S4x8x256x1024.Idx, (V m c main_v2 : S4x8x256x1024.Idx → EReal) i = ((v i : ℝ) : EReal))
    (t : Fin cfg0.N) :
    (dats m 0 c).flushed 3 t = ((cfg0.win 3).blk t).view.read (Elt Ideal) (outArr k q v) := by
  show (cfg0.win 3).cut (grid0.coords t) ((dats m 0 c).after 3 t) = _
  rw [after0_3]
  unfold out0_3
  rw [View.canon_unit_zero hz]
  simp only [View.ld_unit_zero (S := S1x1x256x1024) hz]
  funext j
  obtain ⟨a, b, ch, r, rfl⟩ : ∃ (a b : Fin 1) (ch : Fin 256) (r : Fin 1024), j = ix4 a b ch r :=
    ⟨j 0, j 1, j 2, j 3, eq_ix4 j⟩
  obtain rfl : a = u0 := Subsingleton.elim _ _
  obtain rfl : b = u0 := Subsingleton.elim _ _
  show k0_pay1 (k0_pay5 (iblk m c 0 t) (iblk m c 1 t) (iblk m c 2 t)) (ix4 u0 u0 ch r)
    = outArr k q v (((cfg0.win 3).blk t).view.emb (ix4 u0 u0 ch r))
  refine (out_block (iblk m c 0 t) (iblk m c 1 t) (iblk m c 2 t) (slice k (bn t) (bt t)) (slice q (bn t) (bt t))
    (slice v (bn t) (bt t)) (fun ch' p' => iblk0_at m k c t hk ch' p') (fun ch' p' => iblk1_at m q c t hq ch' p')
    (fun ch' p' => iblk2_at m v c t hv ch' p') ch r).trans ?_
  rw [emb_out3 t ch r]
  rfl

/-! ## The blocks tile the arrays -/

theorem mem_blk4 (t : Fin cfg0.N) (i : S4x8x1024x1024.Idx) :
    i ∈ ((cfg0.win 4).blk t).view.set ↔ ∀ a : Fin 4, win0_4.index t a * S1x1x1024x1024.size a ≤ (i a).val
      ∧ (i a).val < win0_4.index t a * S1x1x1024x1024.size a + S1x1x1024x1024.size a := by
  show i ∈ ((View.whole main_v3_1).slice (win0_4.rect t)).set ↔ _
  rw [View.set_slice_whole, Rect.mem_set_unit]
  exact Iff.rfl

theorem mem_blk3 (t : Fin cfg0.N) (i : S4x8x256x1024.Idx) :
    i ∈ ((cfg0.win 3).blk t).view.set ↔ ∀ a : Fin 4, win0_3.index t a * S1x1x256x1024.size a ≤ (i a).val
      ∧ (i a).val < win0_3.index t a * S1x1x256x1024.size a + S1x1x256x1024.size a := by
  show i ∈ ((View.whole main_v3_0).slice (win0_3.rect t)).set ↔ _
  rw [View.set_slice_whole, Rect.mem_set_unit]
  exact Iff.rfl

/-- Every index of the attention array is in the block of the point of its (batch, time) pair. -/
theorem cover4 (i : S4x8x1024x1024.Idx) :
    ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 1024 := (i 2).isLt
  have hi3 : (i 3).val < 1024 := (i 3).isLt
  obtain ⟨t, h0, h1⟩ := idx_onto ⟨(i 0).val, hi0⟩ ⟨(i 1).val, hi1⟩
  obtain ⟨o2, o3, -, -⟩ := idx_out4 t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; simp only at h0; omega
  | ⟨1, _⟩ => show win0_4.index t (1 : Fin 4) * 1 ≤ (i 1).val ∧ (i 1).val < win0_4.index t (1 : Fin 4) * 1 + 1; simp only at h1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 1024 ≤ (i 3).val ∧ (i 3).val < win0_4.index t (3 : Fin 4) * 1024 + 1024; omega

/-- Every index of the output array is in the block of the point of its (batch, time) pair. -/
theorem cover3 (i : S4x8x256x1024.Idx) :
    ∃ t : Fin cfg0.N, (cfg0.win 3).flush t = true ∧ i ∈ ((cfg0.win 3).blk t).view.set := by
  have hi0 : (i 0).val < 4 := (i 0).isLt
  have hi1 : (i 1).val < 8 := (i 1).isLt
  have hi2 : (i 2).val < 256 := (i 2).isLt
  have hi3 : (i 3).val < 1024 := (i 3).isLt
  obtain ⟨t, h0, h1⟩ := idx_onto ⟨(i 0).val, hi0⟩ ⟨(i 1).val, hi1⟩
  obtain ⟨e0, e1, e2, e3⟩ := idx_out3 t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; simp only at h0; omega
  | ⟨1, _⟩ => show win0_3.index t (1 : Fin 4) * 1 ≤ (i 1).val ∧ (i 1).val < win0_3.index t (1 : Fin 4) * 1 + 1; simp only at h1; omega
  | ⟨2, _⟩ => show win0_3.index t (2 : Fin 4) * 256 ≤ (i 2).val ∧ (i 2).val < win0_3.index t (2 : Fin 4) * 256 + 256; omega
  | ⟨3, _⟩ => show win0_3.index t (3 : Fin 4) * 1024 ≤ (i 3).val ∧ (i 3).val < win0_3.index t (3 : Fin 4) * 1024 + 1024; omega

/-! ## The two arrays after the run -/

/-- The attention array after the run. -/
theorem final4 (c : Dev nD)
    (hk : ∀ i : S4x8x256x1024.Idx, (V m c main_v0 : S4x8x256x1024.Idx → EReal) i = ((k i : ℝ) : EReal))
    (hq : ∀ i : S4x8x256x1024.Idx, (V m c main_v1 : S4x8x256x1024.Idx → EReal) i = ((q i : ℝ) : EReal)) :
    (dats m 0 c).arrAt 4 cfg0.N = attnArr k q :=
  (dats m 0 c).arrAt_eq_of_cover 4 (attnArr k q) (fun t _ => flushed4_eq m k q c hk hq t) cover4

/-- The output array after the run. -/
theorem final3 (c : Dev nD)
    (hk : ∀ i : S4x8x256x1024.Idx, (V m c main_v0 : S4x8x256x1024.Idx → EReal) i = ((k i : ℝ) : EReal))
    (hq : ∀ i : S4x8x256x1024.Idx, (V m c main_v1 : S4x8x256x1024.Idx → EReal) i = ((q i : ℝ) : EReal))
    (hv : ∀ i : S4x8x256x1024.Idx, (V m c main_v2 : S4x8x256x1024.Idx → EReal) i = ((v i : ℝ) : EReal)) :
    (dats m 0 c).arrAt 3 cfg0.N = outArr k q v :=
  (dats m 0 c).arrAt_eq_of_cover 3 (outArr k q v) (fun t _ => flushed3_eq m k q v c hk hq hv t) cover3

end Cert.KernelArrays

end
-- ==== Proof.Finite.lean ====
/-
  From the precondition to real numbers.

  The precondition says, of each of the three argument arrays, that every element's absolute value is below +∞
  (a comparison at every element, all of them conjoined). An extended real with that property is neither +∞ nor
  -∞, so it is a real number.
-/
import proofs.«178597_j74929999446751_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic

instance : Subsingleton Cert.Pre_finite_inputs.S_.Idx := ⟨fun a b => funext fun d => d.elim0⟩

/-- An extended real whose absolute value compares below the word of +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- Under the precondition every element of the three argument arrays is a real number. -/
theorem all_real [Cert.Pre_finite_inputs.Facts]
    (a0 a1 a2 : FVec Ideal Cert.Pre_finite_inputs.S4x8x256x32x32 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_top (a0 i) (Host.reduce_andi_all _ _ _ _ _ h0' i)
  · exact real_of_abs_lt_top (a1 i) (Host.reduce_andi_all _ _ _ _ _ h1 i)
  · exact real_of_abs_lt_top (a2 i) (Host.reduce_andi_all _ _ _ _ _ h2 i)

end Cert.FiniteInputs

end
-- ==== Proof.KernelRun.lean ====
/-
  The idealized kernel's run, read: its two results as reshapes of the whole-array functions.

  Before the region the program only reshapes each argument [4, 8, 256, 32, 32] to [4, 8, 256, 1024]; the region
  writes the output and attention arrays; after it the program only reshapes them to the result shapes. Under the
  precondition every element of the reshaped arguments is a real number, because a reshape only re-indexes.
-/
import proofs.«178597_j74929999446751_2_alg».proof.Proof.KernelArrays
import proofs.«178597_j74929999446751_2_alg».proof.Proof.Finite
import Idealize.ShloMosaic.Lib.StableHlo.Run

noncomputable section

namespace Cert.KernelRun

open Cert.KernelIdeal Cert.KernelIdeal.Gen
open Idealize.ShloMosaic Idealize.ShloMosaic.TcCoe Idealize.SL.Sem Idealize.ShloMosaic.ValueIdx
open Idealize.ShloMosaic.Pipeline (Dat)
open Cert.Spec Cert.KernelArrays

variable (m : (ℓ : Loc nD τ sig) → Buf (Elt Ideal) ℓ) (ρ : Dev nD → PrngReg)

/-! ## The arrays the region finds: the arguments reshaped -/

theorem V_main_v0 (c : Dev nD) : (V m c main_v0 : S4x8x256x1024.Idx → EReal)
    = shapeCast _ (m ((c : Thread nD τ).loc main_arg0)) shapeCasts_S4x8x256x32x32_S4x8x256x1024 := by
  show StableHlo.after hostOps0 (fun b => m (c, b)) (Proc.devRef .tc main_v0) = _
  after_results
  rfl

theorem V_main_v1 (c : Dev nD) : (V m c main_v1 : S4x8x256x1024.Idx → EReal)
    = shapeCast _ (m ((c : Thread nD τ).loc main_arg1)) shapeCasts_S4x8x256x32x32_S4x8x256x1024 := by
  show StableHlo.after hostOps0 (fun b => m (c, b)) (Proc.devRef .tc main_v1) = _
  after_results
  rfl

theorem V_main_v2 (c : Dev nD) : (V m c main_v2 : S4x8x256x1024.Idx → EReal)
    = shapeCast _ (m ((c : Thread nD τ).loc main_arg2)) shapeCasts_S4x8x256x32x32_S4x8x256x1024 := by
  show StableHlo.after hostOps0 (fun b => m (c, b)) (Proc.devRef .tc main_v2) = _
  after_results
  rfl

/-- Under the precondition the three arrays the region finds hold real numbers. -/
theorem exists_real [Cert.Pre_finite_inputs.Facts] (c : Dev nD)
    (h : Cert.Pre_finite_inputs.fn (F := Ideal) (m ((c.tc : Thread nD τ).loc main_arg0))
      (m ((c.tc : Thread nD τ).loc main_arg1)) (m ((c.tc : Thread nD τ).loc main_arg2)) = fun _ => 1#1) :
    ∃ k q v : Arr.Idx → ℝ,
      (∀ i : S4x8x256x1024.Idx, (V m c main_v0 : S4x8x256x1024.Idx → EReal) i = ((k i : ℝ) : EReal))
      ∧ (∀ i : S4x8x256x1024.Idx, (V m c main_v1 : S4x8x256x1024.Idx → EReal) i = ((q i : ℝ) : EReal))
      ∧ (∀ i : S4x8x256x1024.Idx, (V m c main_v2 : S4x8x256x1024.Idx → EReal) i = ((v i : ℝ) : EReal)) := by
  obtain ⟨f0, f1, f2⟩ := Cert.FiniteInputs.all_real _ _ _ h
  have g0 : ∀ i : S4x8x256x1024.Idx, ∃ r : ℝ, (V m c main_v0 : S4x8x256x1024.Idx → EReal) i = (r : EReal) :=
    fun i => by rw [V_main_v0]; unfold shapeCast; exact f0 _
  have g1 : ∀ i : S4x8x256x1024.Idx, ∃ r : ℝ, (V m c main_v1 : S4x8x256x1024.Idx → EReal) i = (r : EReal) :=
    fun i => by rw [V_main_v1]; unfold shapeCast; exact f1 _
  have g2 : ∀ i : S4x8x256x1024.Idx, ∃ r : ℝ, (V m c main_v2 : S4x8x256x1024.Idx → EReal) i = (r : EReal) :=
    fun i => by rw [V_main_v2]; unfold shapeCast; exact f2 _
  choose k hk using g0
  choose q hq using g1
  choose v hv using g2
  exact ⟨k, q, v, hk, hq, hv⟩

/-! ## The results: the region's arrays reshaped -/

variable (k q v : Arr.Idx → ℝ)

theorem tail_v4 (c : Dev nD)
    (hk : ∀ i : S4x8x256x1024.Idx, (V m c main_v0 : S4x8x256x1024.Idx → EReal) i = ((k i : ℝ) : EReal))
    (hq : ∀ i : S4x8x256x1024.Idx, (V m c main_v1 : S4x8x256x1024.Idx → EReal) i = ((q i : ℝ) : EReal))
    (hv : ∀ i : S4x8x256x1024.Idx, (V m c main_v2 : S4x8x256x1024.Idx → EReal) i = ((v i : ℝ) : EReal)) :
    Pipeline.afterTail₀ cfgs (dats m) 0 (V0 m) [hostOps1] c main_v4
      = shapeCast _ (outArr k q v) shapeCasts_S4x8x256x1024_S4x8x256x32x32 := by
  unfold Pipeline.afterTail₀
  show StableHlo.after hostOps1 _ (Proc.devRef .tc main_v4) = _
  after_results
  exact congrArg (fun x => shapeCast _ x shapeCasts_S4x8x256x1024_S4x8x256x32x32)
    ((Pipeline.withArrays_arr spec0 launch0.win.arr_inj c _ _ 3).trans (final3 m k q v c hk hq hv))

theorem tail_v5 (c : Dev nD)
    (hk : ∀ i : S4x8x256x1024.Idx, (V m c main_v0 : S4x8x256x1024.Idx → EReal) i = ((k i : ℝ) : EReal))
    (hq : ∀ i : S4x8x256x1024.Idx, (V m c main_v1 : S4x8x256x1024.Idx → EReal) i = ((q i : ℝ) : EReal)) :
    Pipeline.afterTail₀ cfgs (dats m) 0 (V0 m) [hostOps1] c main_v5
      = shapeCast _ (attnArr k q) shapeCasts_S4x8x1024x1024_S4x8x32x32x32x32 := by
  unfold Pipeline.afterTail₀
  show StableHlo.after hostOps1 _ (Proc.devRef .tc main_v5) = _
  after_results
  exact congrArg (fun x => shapeCast _ x shapeCasts_S4x8x1024x1024_S4x8x32x32x32x32)
    ((Pipeline.withArrays_arr spec0 launch0.win.arr_inj c _ _ 4).trans (final4 m k q c hk hq))

end Cert.KernelRun

namespace Cert.KernelRun

open Cert.KernelIdeal Cert.KernelIdeal.Gen
open Idealize.ShloMosaic Idealize.ShloMosaic.TcCoe Idealize.SL.Sem
open Cert.Spec

variable (m : (ℓ : Loc nD τ sig) → Buf (Elt Ideal) ℓ) (ρ : Dev nD → PrngReg)

/-- The run: every weakly fair execution ends with the two results at the reshaped whole-array functions of the real
    arrays the region found, and the arguments unchanged. -/
theorem run (k q v : Dev nD → Arr.Idx → ℝ)
    (hk : ∀ (c : Dev nD) (i : S4x8x256x1024.Idx), (V m c main_v0 : S4x8x256x1024.Idx → EReal) i = ((k c i : ℝ) : EReal))
    (hq : ∀ (c : Dev nD) (i : S4x8x256x1024.Idx), (V m c main_v1 : S4x8x256x1024.Idx → EReal) i = ((q c i : ℝ) : EReal))
    (hv : ∀ (c : Dev nD) (i : S4x8x256x1024.Idx), (V m c main_v2 : S4x8x256x1024.Idx → EReal) i = ((v c i : ℝ) : EReal)) :
    θ_run defs (onTc (τ := τ) (main (F := Ideal))) ⟨m, fun _ => 0, ρ⟩ (fun r => ∀ c : Dev nD,
      r.2.mem ((c.tc : Thread nD τ).loc main_v4)
        = shapeCast _ (outArr (k c) (q c) (v c)) shapeCasts_S4x8x256x1024_S4x8x256x32x32
      ∧ r.2.mem ((c.tc : Thread nD τ).loc main_v5)
        = shapeCast _ (attnArr (k c) (q c)) shapeCasts_S4x8x1024x1024_S4x8x32x32x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans
        (tail_v4 m (k c) (q c) (v c) c (hk c) (hq c) (hv c)),
      ((h c).2 main_v5 (Pipeline.mem_restRefs_of main_v5 (by decide) (by decide))).trans
        (tail_v5 m (k c) (q c) c (hk c) (hq c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.RefIsSpec.lean ====
/-
  The reference computes the two whole-array functions.

  Read one operation at a time at an index (batch, time, ·, ·): the batched product of the first two arrays over
  the channel gives the scores; dividing by 16, taking the maximum over the key axis (joined with -∞),
  subtracting, exponentiating, summing over the key axis and dividing give the attention in the second
  arithmetic route; the batched product of the third array with it over the key axis gives the output. When the
  three arrays hold coerced reals these are the coerced real formulas.
-/
import proofs.«178597_j74929999446751_2_alg».proof.Proof.Gen.ReferenceIdeal.Read
import proofs.«178597_j74929999446751_2_alg».proof.Proof.Spec
import Idealize.ShloMosaic.PureOps.Reduce

noncomputable section

open scoped BigOperators

namespace Cert.RefIsSpec

open Cert.ReferenceIdeal Cert.ReferenceIdeal.Gen Cert.ReferenceIdeal.Read
open Idealize.ShloMosaic Idealize.ShloMosaic.ValueIdx Cert.KeySoftmax Cert.LibERealFinite Cert.Spec

/-- The arguments of the reference, as arrays of extended reals. -/
abbrev Arg := (⟨S4x8x256x32x32, .f32⟩ : BufTy).Contents (Elt Ideal)

variable (x0 x1 x2 : Arg)

/-- The scores of slice (n, t) from the first two reshaped arguments. -/
def S (n : Fin 4) (t : Fin 8) (p r : Fin 1024) : EReal :=
  ∑ c : Fin 256, val_main_v0 (F := Ideal) x0 (ix4 n t c p) * val_main_v1 (F := Ideal) x1 (ix4 n t c r)

/-- The third reshaped argument's slice (n, t). -/
def Vs (n : Fin 4) (t : Fin 8) (c : Fin 256) (p : Fin 1024) : EReal := val_main_v2 (F := Ideal) x2 (ix4 n t c p)

/-- The scores. -/
theorem v3_at (n : Fin 4) (t : Fin 8) (p r : Fin 1024) :
    val_main_v3 (F := Ideal) x0 x1 (ix4 n t p r) = S x0 x1 n t p r := by
  rw [val_main_v3_apply]
  unfold S
  refine Finset.sum_congr rfl fun c _ => ?_
  have el : lidx_main_v3 (ix4 n t p r) c = ix4 n t c p :=
    funext fun a => Fin.ext (by match a with | ⟨0, _⟩ => rfl | ⟨1, _⟩ => rfl | ⟨2, _⟩ => rfl | ⟨3, _⟩ => rfl)
  have er : ridx_main_v3 (ix4 n t p r) c = ix4 n t c r :=
    funext fun a => Fin.ext (by match a with | ⟨0, _⟩ => rfl | ⟨1, _⟩ => rfl | ⟨2, _⟩ => rfl | ⟨3, _⟩ => rfl)
  rw [el, er]

/-- The scores divided by 16. -/
theorem v5_at (n : Fin 4) (t : Fin 8) (p r : Fin 1024) :
    val_main_v5 (F := Ideal) x0 x1 (ix4 n t p r)
      = rScaled (Ideal.ofBits .f32 0x41800000#32) (S x0 x1 n t) p r := by
  rw [val_main_v5_apply, v3_at, val_main_v4_apply, val_main_cst_apply]
  rfl

/-- The host's maximum over the key axis, from -∞, of any array at (n, t, r): the fold of `max` over the key positions. -/
theorem host_key_max (y : FVec Ideal S4x8x1024x1024 .f32) (n : Fin 4) (t : Fin 8) (r : Fin 1024) :
    Host.reduce FloatOps.maximumf y (val_main_cst_0 (F := Ideal)) reducesTo_S4x8x1024x1024_S4x8x1024_d2 h_S_ (ix3 n t r)
      = (Finset.univ : Finset (Fin 1024)).fold max ⊥ (fun p => y (ix4 n t p r)) := by
  have h : S4x8x1024x1024.Reduces [2] S4x8x1024 := by decide
  refine (Host.reduce_eq_fold_single FloatOps.maximumf y (val_main_cst_0 (F := Ideal))
    reducesTo_S4x8x1024x1024_S4x8x1024_d2 h h_S_ (ix3 n t r)).trans ?_
  have e : (y ∘ h.lift (ix3 n t r)) = fun p : Fin 1024 => y (ix4 n t p r) :=
    funext fun p => congrArg y (funext fun a => Fin.ext (by
      match a with | ⟨0, _⟩ => rfl | ⟨1, _⟩ => rfl | ⟨2, _⟩ => rfl | ⟨3, _⟩ => rfl))
  rw [e, val_main_cst_0_apply]
  show (Finset.univ : Finset (Fin 1024)).fold max (Ideal.ofBits .f32 0xFF800000#32) _ = _
  rw [ofBits_f32_neg_inf]

/-- The maximum over the key axis. -/
theorem v6_at (n : Fin 4) (t : Fin 8) (r : Fin 1024) :
    val_main_v6 (F := Ideal) x0 x1 (ix3 n t r)
      = (Finset.univ : Finset (Fin 1024)).fold max ⊥
          (fun p => rScaled (Ideal.ofBits .f32 0x41800000#32) (S x0 x1 n t) p r) := by
  unfold val_main_v6
  rw [host_key_max, show (fun p : Fin 1024 => val_main_v5 (F := Ideal) x0 x1 (ix4 n t p r))
      = fun p => rScaled (Ideal.ofBits .f32 0x41800000#32) (S x0 x1 n t) p r from
    funext fun p => v5_at x0 x1 n t p r]

/-- Joined with -∞ and broadcast back over the key axis. -/
theorem v10_at (n : Fin 4) (t : Fin 8) (p r : Fin 1024) :
    val_main_v10 (F := Ideal) x0 x1 (ix4 n t p r)
      = rMax (Ideal.ofBits .f32 0x41800000#32) (S x0 x1 n t) r := by
  rw [val_main_v10_apply, val_main_v9_apply]
  have e : idx_main_v9 (idx_main_v10 (ix4 n t p r)) = ix3 n t r :=
    funext fun a => Fin.ext (by match a with | ⟨0, _⟩ => rfl | ⟨1, _⟩ => rfl | ⟨2, _⟩ => rfl)
  rw [e, val_main_v8_apply, val_main_v7_apply, val_main_cst_1_apply, v6_at]
  show max (Ideal.ofBits .f32 0xFF800000#32) _ = _
  rw [ofBits_f32_neg_inf]
  rfl

/-- The unnormalised weights. -/
theorem v12_at (n : Fin 4) (t : Fin 8) (p r : Fin 1024) :
    val_main_v12 (F := Ideal) x0 x1 (ix4 n t p r)
      = rWeight (Ideal.ofBits .f32 0x41800000#32) (S x0 x1 n t) p r := by
  rw [val_main_v12_apply, val_main_v11_apply, v5_at, v10_at]
  rfl

/-- The attention, in the second arithmetic route. -/
theorem v16_at (n : Fin 4) (t : Fin 8) (p r : Fin 1024) :
    val_main_v16 (F := Ideal) x0 x1 (ix4 n t p r)
      = rAttn (Ideal.ofBits .f32 0x00000000#32) (Ideal.ofBits .f32 0x41800000#32) (S x0 x1 n t) p r := by
  rw [val_main_v16_apply, v12_at, val_main_v15_apply, val_main_v14_apply]
  have e : idx_main_v14 (idx_main_v15 (ix4 n t p r)) = ix3 n t r :=
    funext fun a => Fin.ext (by match a with | ⟨0, _⟩ => rfl | ⟨1, _⟩ => rfl | ⟨2, _⟩ => rfl)
  rw [e, val_main_v13_apply, val_main_cst_2_apply]
  have es : (∑ k : Fin 1024, val_main_v12 (F := Ideal) x0 x1 (idx_main_v13 (ix3 n t r) k))
      = ∑ p' : Fin 1024, rWeight (Ideal.ofBits .f32 0x41800000#32) (S x0 x1 n t) p' r :=
    Finset.sum_congr rfl fun k _ => (congrArg (val_main_v12 (F := Ideal) x0 x1) (funext fun a => Fin.ext (by
      match a with | ⟨0, _⟩ => rfl | ⟨1, _⟩ => rfl | ⟨2, _⟩ => rfl | ⟨3, _⟩ => rfl))).trans (v12_at x0 x1 n t k r)
  rw [es]
  rfl

/-- The output, in the second arithmetic route. -/
theorem v17_at (n : Fin 4) (t : Fin 8) (c : Fin 256) (r : Fin 1024) :
    val_main_v17 (F := Ideal) x0 x1 x2 (ix4 n t c r)
      = rOut (Ideal.ofBits .f32 0x00000000#32) (Ideal.ofBits .f32 0x41800000#32) (Vs x2 n t) (S x0 x1 n t) c r := by
  rw [val_main_v17_apply]
  unfold rOut Vs
  refine Finset.sum_congr rfl fun p _ => ?_
  have el : lidx_main_v17 (ix4 n t c r) p = ix4 n t c p :=
    funext fun a => Fin.ext (by match a with | ⟨0, _⟩ => rfl | ⟨1, _⟩ => rfl | ⟨2, _⟩ => rfl | ⟨3, _⟩ => rfl)
  have er : ridx_main_v17 (ix4 n t c r) p = ix4 n t p r :=
    funext fun a => Fin.ext (by match a with | ⟨0, _⟩ => rfl | ⟨1, _⟩ => rfl | ⟨2, _⟩ => rfl | ⟨3, _⟩ => rfl)
  rw [el, er, v16_at]

/-! ## On coerced reals -/

variable (k q v : Arr.Idx → ℝ)

theorem S_coe (hk : ∀ i, val_main_v0 (F := Ideal) x0 i = ((k i : ℝ) : EReal))
    (hq : ∀ i, val_main_v1 (F := Ideal) x1 i = ((q i : ℝ) : EReal)) (n : Fin 4) (t : Fin 8) :
    S x0 x1 n t = fun p r => ((score k q n t p r : ℝ) : EReal) := by
  funext p r
  unfold S
  rw [← score_coe]
  exact Finset.sum_congr rfl fun c _ => by rw [hk, hq]

/-- The reference's attention array is the attention array of the real arrays. -/
theorem attn_eq (hk : ∀ i, val_main_v0 (F := Ideal) x0 i = ((k i : ℝ) : EReal))
    (hq : ∀ i, val_main_v1 (F := Ideal) x1 i = ((q i : ℝ) : EReal)) :
    val_main_v16 (F := Ideal) x0 x1 = attnArr k q := by
  funext i
  obtain ⟨n, t, p, r, rfl⟩ : ∃ (n : Fin 4) (t : Fin 8) (p r : Fin 1024), i = ix4 n t p r :=
    ⟨i 0, i 1, i 2, i 3, eq_ix4 i⟩
  rw [v16_at, S_coe x0 x1 k q hk hq, ofBits_f32_zero, ofBits_f32_sixteen, attnArr_ix]
  exact rAttn_coe (score k q n t) p r

/-- The reference's output array is the output array of the real arrays. -/
theorem out_eq (hk : ∀ i, val_main_v0 (F := Ideal) x0 i = ((k i : ℝ) : EReal))
    (hq : ∀ i, val_main_v1 (F := Ideal) x1 i = ((q i : ℝ) : EReal))
    (hv : ∀ i, val_main_v2 (F := Ideal) x2 i = ((v i : ℝ) : EReal)) :
    val_main_v17 (F := Ideal) x0 x1 x2 = outArr k q v := by
  funext i
  obtain ⟨n, t, c, r, rfl⟩ : ∃ (n : Fin 4) (t : Fin 8) (c : Fin 256) (r : Fin 1024), i = ix4 n t c r :=
    ⟨i 0, i 1, i 2, i 3, eq_ix4 i⟩
  rw [v17_at, S_coe x0 x1 k q hk hq, ofBits_f32_zero, ofBits_f32_sixteen, outArr_ix,
    show Vs x2 n t = fun c p => ((slice v n t c p : ℝ) : EReal) from funext fun c => funext fun p => hv _]
  exact rOut_coe (slice v n t) (score k q n t) c r

end Cert.RefIsSpec

end
-- ==== Proof.lean ====
/-
  The claim: the kernel and its idealization run and keep their arguments, the idealization rewrote nothing, and
  at the extended reals the idealized kernel and the idealized reference end with equal results.

  Both programs reshape the three arguments to (batch, time, channel, position) arrays and reshape their two
  results back, so the comparison is between the arrays in the middle. For each (batch, time) slice the scores are
  `s[p, r] = Σ_c k[c, p] · q[c, r]`. The reference forms the softmax of `s / 16` over the KEY position `p` —
  `exp (s/16 - max_p s/16) / Σ_p exp (…)` — and the output `Σ_p v[c, p] · softmax[p, r]`. The kernel, one grid point per
  slice, forms `exp ((s - max_p s) · (1/16))`, multiplies by the reciprocal of the column sum, and pulls that
  reciprocal out of the weighted sum. Under the precondition every input is a real number, so every score is;
  then dividing by 16 commutes with the maximum, `(a - b) · (1/16) = a/16 - b/16`, the column sum is positive (the
  maximal term contributes `exp 0`), and a common factor moves out of a finite sum: both programs compute the
  coerced real softmax and weighted sum. The kernel's 32 blocks tile each output array.
-/
import proofs.«178597_j74929999446751_2_alg».proof.Defs
import proofs.«178597_j74929999446751_2_alg».proof.Proof.Gen.Kernel
import proofs.«178597_j74929999446751_2_alg».proof.Proof.Gen.Kernel.Skeleton
import proofs.«178597_j74929999446751_2_alg».proof.Proof.Gen.Kernel.Launch
import proofs.«178597_j74929999446751_2_alg».proof.Proof.Gen.Kernel.Points
import proofs.«178597_j74929999446751_2_alg».proof.Proof.Gen.Kernel.Frame
import proofs.«178597_j74929999446751_2_alg».proof.Proof.Gen.KernelIdeal
import proofs.«178597_j74929999446751_2_alg».proof.Proof.Gen.KernelIdeal.Skeleton
import proofs.«178597_j74929999446751_2_alg».proof.Proof.Gen.KernelIdeal.Launch
import proofs.«178597_j74929999446751_2_alg».proof.Proof.Gen.KernelIdeal.Points
import proofs.«178597_j74929999446751_2_alg».proof.Proof.Gen.KernelIdeal.Frame
import proofs.«178597_j74929999446751_2_alg».proof.Proof.Gen.ReferenceIdeal
import proofs.«178597_j74929999446751_2_alg».proof.Proof.Gen.Pre_finite_inputs
import proofs.«178597_j74929999446751_2_alg».proof.Proof.Gen.ReferenceIdeal.Run
import proofs.«178597_j74929999446751_2_alg».proof.Proof.Gen.ReferenceIdeal.Read
import proofs.«178597_j74929999446751_2_alg».proof.Proof.KernelRun
import proofs.«178597_j74929999446751_2_alg».proof.Proof.RefIsSpec
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The idealized reference runs and keeps its arguments: its run with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- At the extended reals, from memories agreeing on the arguments, both programs end with the output array and the
    attention array of the real arrays the arguments hold, reshaped to the result shapes. -/
theorem algebraic : Cert.algebraic_KernelIdeal_ReferenceIdeal := by
  intro m ρ m' ρ' hpre hagree
  have hreal := fun c => Cert.KernelRun.exists_real m c (hpre c)
  choose k q v hk hq hv using hreal
  refine ⟨_, _, Cert.KernelRun.run m ρ k q v hk hq hv, ?_⟩
  refine (θ_run Cert.ReferenceIdeal.defs _ _).mono (fun _ h c => ?_) (Cert.ReferenceIdeal.Value.run (F := Ideal) m' ρ')
  obtain ⟨a0, a1, a2⟩ := hagree c
  have hk' : ∀ i, Cert.ReferenceIdeal.Read.val_main_v0 (F := Ideal)
      (m' ((c.tc : Thread Cert.ReferenceIdeal.nD Cert.ReferenceIdeal.τ).loc Cert.ReferenceIdeal.main_arg0)) i
        = ((k c i : ℝ) : EReal) := fun i => by
    rw [a0]
    exact (congrFun (Cert.KernelRun.V_main_v0 m c) i).symm.trans (hk c i)
  have hq' : ∀ i, Cert.ReferenceIdeal.Read.val_main_v1 (F := Ideal)
      (m' ((c.tc : Thread Cert.ReferenceIdeal.nD Cert.ReferenceIdeal.τ).loc Cert.ReferenceIdeal.main_arg1)) i
        = ((q c i : ℝ) : EReal) := fun i => by
    rw [a1]
    exact (congrFun (Cert.KernelRun.V_main_v1 m c) i).symm.trans (hq c i)
  have hv' : ∀ i, Cert.ReferenceIdeal.Read.val_main_v2 (F := Ideal)
      (m' ((c.tc : Thread Cert.ReferenceIdeal.nD Cert.ReferenceIdeal.τ).loc Cert.ReferenceIdeal.main_arg2)) i
        = ((v c i : ℝ) : EReal) := fun i => by
    rw [a2]
    exact (congrFun (Cert.KernelRun.V_main_v2 m c) i).symm.trans (hv c i)
  refine ⟨(h c).1.trans ((Cert.ReferenceIdeal.Read.val_main_v18_eq _ _ _).trans ?_),
    (h c).2.1.trans ((Cert.ReferenceIdeal.Read.val_main_v19_eq _ _).trans ?_), (h c).2.2⟩
  · unfold Cert.ReferenceIdeal.Read.val_main_v18
    exact congrArg (fun x => shapeCast _ x _) (Cert.RefIsSpec.out_eq _ _ _ (k c) (q c) (v c) hk' hq' hv')
  · unfold Cert.ReferenceIdeal.Read.val_main_v19
    exact congrArg (fun x => shapeCast _ x _) (Cert.RefIsSpec.attn_eq _ _ (k c) (q c) hk' hq')

theorem claim : Cert.Claim := ⟨Cert.Kernel.Gen.facts, Cert.KernelIdeal.Gen.facts, Cert.ReferenceIdeal.Gen.facts, Cert.Pre_finite_inputs.Gen.facts,
  frame_kernel, frame_ideal, frame_ref, preserves, algebraic⟩

end Cert.Proof

end
